-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x512x512 : Shape := ⟨4, ![4, 8, 512, 512]⟩
abbrev S_ : Shape := ⟨0, ![]⟩

class Facts : Prop where
  bcast_S_S4x8x512x512 : S_.BroadcastsInDim S4x8x512x512 (![] : Fin 0 → Fin S4x8x512x512.rank)
  reducesTo_S4x8x512x512_S_d0_1_2_3 : S4x8x512x512.ReducesTo [0, 1, 2, 3] S_
  h_S_ : 0 < S_.numel

variable [Facts]

def fn {F : FTy → Type} [FloatOps F] (main_arg0 : FVec F S4x8x512x512 .f32) : IVec S_ 1 :=
  let main_v0 : FVec F S4x8x512x512 .f32 := Host.absf main_arg0
  let main_cst : FVec F S_ .f32 := constant S_ .f32 0x7F800000#32
  let main_v1 : FVec F S4x8x512x512 .f32 := broadcastInDim S4x8x512x512 ![] bcast_S_S4x8x512x512 main_cst
  let main_v2 : IVec S4x8x512x512 1 := cmpf .olt main_v0 main_v1
  let main_c : IVec S_ 1 := constantI S_ 1 1#1
  let main_v3 : IVec S_ 1 := (fun x v => Host.reduce IntOp.andi x v reducesTo_S4x8x512x512_S_d0_1_2_3 h_S_) main_v2 main_c
  main_v3
-- ==== Kernel.lean ====
abbrev S4x8x512x512 : Shape := ⟨4, ![4, 8, 512, 512]⟩
abbrev S4x8x63x63x256 : Shape := ⟨5, ![4, 8, 63, 63, 256]⟩
abbrev S1x1x512x512 : Shape := ⟨4, ![1, 1, 512, 512]⟩
abbrev S1x1x63x63x256 : Shape := ⟨5, ![1, 1, 63, 63, 256]⟩
abbrev S1x1x16x512 : Shape := ⟨4, ![1, 1, 16, 512]⟩
abbrev S16x512 : Shape := ⟨2, ![16, 512]⟩
abbrev S16x16 : Shape := ⟨2, ![16, 16]⟩
abbrev S256 : Shape := ⟨1, ![256]⟩
abbrev S1x1x1x1x256 : Shape := ⟨5, ![1, 1, 1, 1, 256]⟩
abbrev S4x8x3969x16x16 : Shape := ⟨5, ![4, 8, 3969, 16, 16]⟩

abbrev nBuf : Space → Nat
  | .hbm => 3
  | .vmem => 4
  | .smem => 0
  | _ => 0

abbrev bufTy : (tb : Table) → Fin (tcTables nBuf tb) → BufTy
  | .hbm, ⟨0, _⟩ => ⟨S4x8x512x512, .f32⟩
  | .hbm, ⟨1, _⟩ => ⟨S4x8x63x63x256, .f32⟩
  | .hbm, ⟨2, _⟩ => ⟨S4x8x3969x16x16, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x63x63x256, .f32⟩
  | .local _ .vmem, ⟨3, _⟩ => ⟨S1x1x63x63x256, .f32⟩
  | _, _ => ⟨S4x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c63_i32 : BitVec 32 := 63#32
  let v0 : BitVec 32 := Scalar.addi c0_i32 c63_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c8_i32 : BitVec 32 := 8#32
  let v1 : BitVec 32 := Scalar.muli arg4 c8_i32
  v1
def k0_off1 (k0_t1 : Fin k0_t1_loop.trips) : Fin 4 → Nat :=
  let c0 : Index := 0#32
  let c0_1 : Index := 0#32
  let c0_i32 : BitVec 32 := 0#32
  let c1_i32 : BitVec 32 := 1#32
  let arg4 : BitVec 32 := Scf.iv c0_i32 c1_i32 k0_t1
  let c8_i32 : BitVec 32 := 8#32
  let v1 : BitVec 32 := Scalar.muli arg4 c8_i32
  let v2 : BitVec 32 := v1
  let v3 : Index := Scalar.indexCast v2
  let c0_2 : Index := 0#32
  ![0, 0, v3.toNat, 0]
def k0_off2 (k0_t1 : Fin k0_t1_loop.trips) : Fin 5 → Nat :=
  let c0_3 : Index := 0#32
  let c0_4 : Index := 0#32
  let c0_i32 : BitVec 32 := 0#32
  let c1_i32 : BitVec 32 := 1#32
  let arg4 : BitVec 32 := Scf.iv c0_i32 c1_i32 k0_t1
  let v8 : Index := Scalar.indexCast arg4
  let c0_5 : Index := 0#32
  let c0_6 : Index := 0#32
  ![0, 0, v8.toNat, 0, 0]
def k0_off3 (k0_t1 : Fin k0_t1_loop.trips) : Fin 5 → Nat :=
  let c0_7 : Index := 0#32
  let c0_8 : Index := 0#32
  let c0_i32 : BitVec 32 := 0#32
  let c1_i32 : BitVec 32 := 1#32
  let arg4 : BitVec 32 := Scf.iv c0_i32 c1_i32 k0_t1
  let v14 : Index := Scalar.indexCast arg4
  let c1 : Index := 1#32
  let c0_9 : Index := 0#32
  ![0, 0, v14.toNat, 1, 0]
def k0_off4 (k0_t1 : Fin k0_t1_loop.trips) : Fin 5 → Nat :=
  let c0_10 : Index := 0#32
  let c0_11 : Index := 0#32
  let c0_i32 : BitVec 32 := 0#32
  let c1_i32 : BitVec 32 := 1#32
  let arg4 : BitVec 32 := Scf.iv c0_i32 c1_i32 k0_t1
  let v20 : Index := Scalar.indexCast arg4
  let c2 : Index := 2#32
  let c0_12 : Index := 0#32
  ![0, 0, v20.toNat, 2, 0]
def k0_off5 (k0_t1 : Fin k0_t1_loop.trips) : Fin 5 → Nat :=
  let c0_13 : Index := 0#32
  let c0_14 : Index := 0#32
  let c0_i32 : BitVec 32 := 0#32
  let c1_i32 : BitVec 32 := 1#32
  let arg4 : BitVec 32 := Scf.iv c0_i32 c1_i32 k0_t1
  let v26 : Index := Scalar.indexCast arg4
  let c3 : Index := 3#32
  let c0_15 : Index := 0#32
  ![0, 0, v26.toNat, 3, 0]
def k0_off6 (k0_t1 : Fin k0_t1_loop.trips) : Fin 5 → Nat :=
  let c0_16 : Index := 0#32
  let c0_17 : Index := 0#32
  let c0_i32 : BitVec 32 := 0#32
  let c1_i32 : BitVec 32 := 1#32
  let arg4 : BitVec 32 := Scf.iv c0_i32 c1_i32 k0_t1
  let v32 : Index := Scalar.indexCast arg4
  let c4 : Index := 4#32
  let c0_18 : Index := 0#32
  ![0, 0, v32.toNat, 4, 0]
def k0_off7 (k0_t1 : Fin k0_t1_loop.trips) : Fin 5 → Nat :=
  let c0_19 : Index := 0#32
  let c0_20 : Index := 0#32
  let c0_i32 : BitVec 32 := 0#32
  let c1_i32 : BitVec 32 := 1#32
  let arg4 : BitVec 32 := Scf.iv c0_i32 c1_i32 k0_t1
  let v38 : Index := Scalar.indexCast arg4
  let c5 : Index := 5#32
  let c0_21 : Index := 0#32
  ![0, 0, v38.toNat, 5, 0]
def k0_off8 (k0_t1 : Fin k0_t1_loop.trips) : Fin 5 → Nat :=
  let c0_22 : Index := 0#32
  let c0_23 : Index := 0#32
  let c0_i32 : BitVec 32 := 0#32
  let c1_i32 : BitVec 32 := 1#32
  let arg4 : BitVec 32 := Scf.iv c0_i32 c1_i32 k0_t1
  let v44 : Index := Scalar.indexCast arg4
  let c6 : Index := 6#32
  let c0_24 : Index := 0#32
  ![0, 0, v44.toNat, 6, 0]
def k0_off9 (k0_t1 : Fin k0_t1_loop.trips) : Fin 5 → Nat :=
  let c0_25 : Index := 0#32
  let c0_26 : Index := 0#32
  let c0_i32 : BitVec 32 := 0#32
  let c1_i32 : BitVec 32 := 1#32
  let arg4 : BitVec 32 := Scf.iv c0_i32 c1_i32 k0_t1
  let v50 : Index := Scalar.indexCast arg4
  let c7 : Index := 7#32
  let c0_27 : Index := 0#32
  ![0, 0, v50.toNat, 7, 0]
def k0_off10 (k0_t1 : Fin k0_t1_loop.trips) : Fin 5 → Nat :=
  let c0_28 : Index := 0#32
  let c0_29 : Index := 0#32
  let c0_i32 : BitVec 32 := 0#32
  let c1_i32 : BitVec 32 := 1#32
  let arg4 : BitVec 32 := Scf.iv c0_i32 c1_i32 k0_t1
  let v56 : Index := Scalar.indexCast arg4
  let c8 : Index := 8#32
  let c0_30 : Index := 0#32
  ![0, 0, v56.toNat, 8, 0]
def k0_off11 (k0_t1 : Fin k0_t1_loop.trips) : Fin 5 → Nat :=
  let c0_31 : Index := 0#32
  let c0_32 : Index := 0#32
  let c0_i32 : BitVec 32 := 0#32
  let c1_i32 : BitVec 32 := 1#32
  let arg4 : BitVec 32 := Scf.iv c0_i32 c1_i32 k0_t1
  let v62 : Index := Scalar.indexCast arg4
  let c9 : Index := 9#32
  let c0_33 : Index := 0#32
  ![0, 0, v62.toNat, 9, 0]
def k0_off12 (k0_t1 : Fin k0_t1_loop.trips) : Fin 5 → Nat :=
  let c0_34 : Index := 0#32
  let c0_35 : Index := 0#32
  let c0_i32 : BitVec 32 := 0#32
  let c1_i32 : BitVec 32 := 1#32
  let arg4 : BitVec 32 := Scf.iv c0_i32 c1_i32 k0_t1
  let v68 : Index := Scalar.indexCast arg4
  let c10 : Index := 10#32
  let c0_36 : Index := 0#32
  ![0, 0, v68.toNat, 10, 0]
def k0_off13 (k0_t1 : Fin k0_t1_loop.trips) : Fin 5 → Nat :=
  let c0_37 : Index := 0#32
  let c0_38 : Index := 0#32
  let c0_i32 : BitVec 32 := 0#32
  let c1_i32 : BitVec 32 := 1#32
  let arg4 : BitVec 32 := Scf.iv c0_i32 c1_i32 k0_t1
  let v74 : Index := Scalar.indexCast arg4
  let c11 : Index := 11#32
  let c0_39 : Index := 0#32
  ![0, 0, v74.toNat, 11, 0]
def k0_off14 (k0_t1 : Fin k0_t1_loop.trips) : Fin 5 → Nat :=
  let c0_40 : Index := 0#32
  let c0_41 : Index := 0#32
  let c0_i32 : BitVec 32 := 0#32
  let c1_i32 : BitVec 32 := 1#32
  let arg4 : BitVec 32 := Scf.iv c0_i32 c1_i32 k0_t1
  let v80 : Index := Scalar.indexCast arg4
  let c12 : Index := 12#32
  let c0_42 : Index := 0#32
  ![0, 0, v80.toNat, 12, 0]
def k0_off15 (k0_t1 : Fin k0_t1_loop.trips) : Fin 5 → Nat :=
  let c0_43 : Index := 0#32
  let c0_44 : Index := 0#32
  let c0_i32 : BitVec 32 := 0#32
  let c1_i32 : BitVec 32 := 1#32
  let arg4 : BitVec 32 := Scf.iv c0_i32 c1_i32 k0_t1
  let v86 : Index := Scalar.indexCast arg4
  let c13 : Index := 13#32
  let c0_45 : Index := 0#32
  ![0, 0, v86.toNat, 13, 0]
def k0_off16 (k0_t1 : Fin k0_t1_loop.trips) : Fin 5 → Nat :=
  let c0_46 : Index := 0#32
  let c0_47 : Index := 0#32
  let c0_i32 : BitVec 32 := 0#32
  let c1_i32 : BitVec 32 := 1#32
  let arg4 : BitVec 32 := Scf.iv c0_i32 c1_i32 k0_t1
  let v92 : Index := Scalar.indexCast arg4
  let c14 : Index := 14#32
  let c0_48 : Index := 0#32
  ![0, 0, v92.toNat, 14, 0]
def k0_off17 (k0_t1 : Fin k0_t1_loop.trips) : Fin 5 → Nat :=
  let c0_49 : Index := 0#32
  let c0_50 : Index := 0#32
  let c0_i32 : BitVec 32 := 0#32
  let c1_i32 : BitVec 32 := 1#32
  let arg4 : BitVec 32 := Scf.iv c0_i32 c1_i32 k0_t1
  let v98 : Index := Scalar.indexCast arg4
  let c15 : Index := 15#32
  let c0_51 : Index := 0#32
  ![0, 0, v98.toNat, 15, 0]
def k0_off18 (k0_t1 : Fin k0_t1_loop.trips) : Fin 5 → Nat :=
  let c0_52 : Index := 0#32
  let c0_53 : Index := 0#32
  let c0_i32 : BitVec 32 := 0#32
  let c1_i32 : BitVec 32 := 1#32
  let arg4 : BitVec 32 := Scf.iv c0_i32 c1_i32 k0_t1
  let v104 : Index := Scalar.indexCast arg4
  let c16 : Index := 16#32
  let c0_54 : Index := 0#32
  ![0, 0, v104.toNat, 16, 0]
def k0_off19 (k0_t1 : Fin k0_t1_loop.trips) : Fin 5 → Nat :=
  let c0_55 : Index := 0#32
  let c0_56 : Index := 0#32
  let c0_i32 : BitVec 32 := 0#32
  let c1_i32 : BitVec 32 := 1#32
  let arg4 : BitVec 32 := Scf.iv c0_i32 c1_i32 k0_t1
  let v110 : Index := Scalar.indexCast arg4
  let c17 : Index := 17#32
  let c0_57 : Index := 0#32
  ![0, 0, v110.toNat, 17, 0]
def k0_off20 (k0_t1 : Fin k0_t1_loop.trips) : Fin 5 → Nat :=
  let c0_58 : Index := 0#32
  let c0_59 : Index := 0#32
  let c0_i32 : BitVec 32 := 0#32
  let c1_i32 : BitVec 32 := 1#32
  let arg4 : BitVec 32 := Scf.iv c0_i32 c1_i32 k0_t1
  let v116 : Index := Scalar.indexCast arg4
  let c18 : Index := 18#32
  let c0_60 : Index := 0#32
  ![0, 0, v116.toNat, 18, 0]
def k0_off21 (k0_t1 : Fin k0_t1_loop.trips) : Fin 5 → Nat :=
  let c0_61 : Index := 0#32
  let c0_62 : Index := 0#32
  let c0_i32 : BitVec 32 := 0#32
  let c1_i32 : BitVec 32 := 1#32
  let arg4 : BitVec 32 := Scf.iv c0_i32 c1_i32 k0_t1
  let v122 : Index := Scalar.indexCast arg4
  let c19 : Index := 19#32
  let c0_63 : Index := 0#32
  ![0, 0, v122.toNat, 19, 0]
def k0_off22 (k0_t1 : Fin k0_t1_loop.trips) : Fin 5 → Nat :=
  let c0_64 : Index := 0#32
  let c0_65 : Index := 0#32
  let c0_i32 : BitVec 32 := 0#32
  let c1_i32 : BitVec 32 := 1#32
  let arg4 : BitVec 32 := Scf.iv c0_i32 c1_i32 k0_t1
  let v128 : Index := Scalar.indexCast arg4
  let c20 : Index := 20#32
  let c0_66 : Index := 0#32
  ![0, 0, v128.toNat, 20, 0]
def k0_off23 (k0_t1 : Fin k0_t1_loop.trips) : Fin 5 → Nat :=
  let c0_67 : Index := 0#32
  let c0_68 : Index := 0#32
  let c0_i32 : BitVec 32 := 0#32
  let c1_i32 : BitVec 32 := 1#32
  let arg4 : BitVec 32 := Scf.iv c0_i32 c1_i32 k0_t1
  let v134 : Index := Scalar.indexCast arg4
  let c21 : Index := 21#32
  let c0_69 : Index := 0#32
  ![0, 0, v134.toNat, 21, 0]
def k0_off24 (k0_t1 : Fin k0_t1_loop.trips) : Fin 5 → Nat :=
  let c0_70 : Index := 0#32
  let c0_71 : Index := 0#32
  let c0_i32 : BitVec 32 := 0#32
  let c1_i32 : BitVec 32 := 1#32
  let arg4 : BitVec 32 := Scf.iv c0_i32 c1_i32 k0_t1
  let v140 : Index := Scalar.indexCast arg4
  let c22 : Index := 22#32
  let c0_72 : Index := 0#32
  ![0, 0, v140.toNat, 22, 0]
def k0_off25 (k0_t1 : Fin k0_t1_loop.trips) : Fin 5 → Nat :=
  let c0_73 : Index := 0#32
  let c0_74 : Index := 0#32
  let c0_i32 : BitVec 32 := 0#32
  let c1_i32 : BitVec 32 := 1#32
  let arg4 : BitVec 32 := Scf.iv c0_i32 c1_i32 k0_t1
  let v146 : Index := Scalar.indexCast arg4
  let c23 : Index := 23#32
  let c0_75 : Index := 0#32
  ![0, 0, v146.toNat, 23, 0]
def k0_off26 (k0_t1 : Fin k0_t1_loop.trips) : Fin 5 → Nat :=
  let c0_76 : Index := 0#32
  let c0_77 : Index := 0#32
  let c0_i32 : BitVec 32 := 0#32
  let c1_i32 : BitVec 32 := 1#32
  let arg4 : BitVec 32 := Scf.iv c0_i32 c1_i32 k0_t1
  let v152 : Index := Scalar.indexCast arg4
  let c24 : Index := 24#32
  let c0_78 : Index := 0#32
  ![0, 0, v152.toNat, 24, 0]
def k0_off27 (k0_t1 : Fin k0_t1_loop.trips) : Fin 5 → Nat :=
  let c0_79 : Index := 0#32
  let c0_80 : Index := 0#32
  let c0_i32 : BitVec 32 := 0#32
  let c1_i32 : BitVec 32 := 1#32
  let arg4 : BitVec 32 := Scf.iv c0_i32 c1_i32 k0_t1
  let v158 : Index := Scalar.indexCast arg4
  let c25 : Index := 25#32
  let c0_81 : Index := 0#32
  ![0, 0, v158.toNat, 25, 0]
def k0_off28 (k0_t1 : Fin k0_t1_loop.trips) : Fin 5 → Nat :=
  let c0_82 : Index := 0#32
  let c0_83 : Index := 0#32
  let c0_i32 : BitVec 32 := 0#32
  let c1_i32 : BitVec 32 := 1#32
  let arg4 : BitVec 32 := Scf.iv c0_i32 c1_i32 k0_t1
  let v164 : Index := Scalar.indexCast arg4
  let c26 : Index := 26#32
  let c0_84 : Index := 0#32
  ![0, 0, v164.toNat, 26, 0]
def k0_off29 (k0_t1 : Fin k0_t1_loop.trips) : Fin 5 → Nat :=
  let c0_85 : Index := 0#32
  let c0_86 : Index := 0#32
  let c0_i32 : BitVec 32 := 0#32
  let c1_i32 : BitVec 32 := 1#32
  let arg4 : BitVec 32 := Scf.iv c0_i32 c1_i32 k0_t1
  let v170 : Index := Scalar.indexCast arg4
  let c27 : Index := 27#32
  let c0_87 : Index := 0#32
  ![0, 0, v170.toNat, 27, 0]
def k0_off30 (k0_t1 : Fin k0_t1_loop.trips) : Fin 5 → Nat :=
  let c0_88 : Index := 0#32
  let c0_89 : Index := 0#32
  let c0_i32 : BitVec 32 := 0#32
  let c1_i32 : BitVec 32 := 1#32
  let arg4 : BitVec 32 := Scf.iv c0_i32 c1_i32 k0_t1
  let v176 : Index := Scalar.indexCast arg4
  let c28 : Index := 28#32
  let c0_90 : Index := 0#32
  ![0, 0, v176.toNat, 28, 0]
def k0_off31 (k0_t1 : Fin k0_t1_loop.trips) : Fin 5 → Nat :=
  let c0_91 : Index := 0#32
  let c0_92 : Index := 0#32
  let c0_i32 : BitVec 32 := 0#32
  let c1_i32 : BitVec 32 := 1#32
  let arg4 : BitVec 32 := Scf.iv c0_i32 c1_i32 k0_t1
  let v182 : Index := Scalar.indexCast arg4
  let c29 : Index := 29#32
  let c0_93 : Index := 0#32
  ![0, 0, v182.toNat, 29, 0]
def k0_off32 (k0_t1 : Fin k0_t1_loop.trips) : Fin 5 → Nat :=
  let c0_94 : Index := 0#32
  let c0_95 : Index := 0#32
  let c0_i32 : BitVec 32 := 0#32
  let c1_i32 : BitVec 32 := 1#32
  let arg4 : BitVec 32 := Scf.iv c0_i32 c1_i32 k0_t1
  let v188 : Index := Scalar.indexCast arg4
  let c30 : Index := 30#32
  let c0_96 : Index := 0#32
  ![0, 0, v188.toNat, 30, 0]
def k0_off33 (k0_t1 : Fin k0_t1_loop.trips) : Fin 5 → Nat :=
  let c0_97 : Index := 0#32
  let c0_98 : Index := 0#32
  let c0_i32 : BitVec 32 := 0#32
  let c1_i32 : BitVec 32 := 1#32
  let arg4 : BitVec 32 := Scf.iv c0_i32 c1_i32 k0_t1
  let v194 : Index := Scalar.indexCast arg4
  let c31 : Index := 31#32
  let c0_99 : Index := 0#32
  ![0, 0, v194.toNat, 31, 0]
def k0_off34 (k0_t1 : Fin k0_t1_loop.trips) : Fin 5 → Nat :=
  let c0_100 : Index := 0#32
  let c0_101 : Index := 0#32
  let c0_i32 : BitVec 32 := 0#32
  let c1_i32 : BitVec 32 := 1#32
  let arg4 : BitVec 32 := Scf.iv c0_i32 c1_i32 k0_t1
  let v200 : Index := Scalar.indexCast arg4
  let c32 : Index := 32#32
  let c0_102 : Index := 0#32
  ![0, 0, v200.toNat, 32, 0]
def k0_off35 (k0_t1 : Fin k0_t1_loop.trips) : Fin 5 → Nat :=
  let c0_103 : Index := 0#32
  let c0_104 : Index := 0#32
  let c0_i32 : BitVec 32 := 0#32
  let c1_i32 : BitVec 32 := 1#32
  let arg4 : BitVec 32 := Scf.iv c0_i32 c1_i32 k0_t1
  let v206 : Index := Scalar.indexCast arg4
  let c33 : Index := 33#32
  let c0_105 : Index := 0#32
  ![0, 0, v206.toNat, 33, 0]
def k0_off36 (k0_t1 : Fin k0_t1_loop.trips) : Fin 5 → Nat :=
  let c0_106 : Index := 0#32
  let c0_107 : Index := 0#32
  let c0_i32 : BitVec 32 := 0#32
  let c1_i32 : BitVec 32 := 1#32
  let arg4 : BitVec 32 := Scf.iv c0_i32 c1_i32 k0_t1
  let v212 : Index := Scalar.indexCast arg4
  let c34 : Index := 34#32
  let c0_108 : Index := 0#32
  ![0, 0, v212.toNat, 34, 0]
def k0_off37 (k0_t1 : Fin k0_t1_loop.trips) : Fin 5 → Nat :=
  let c0_109 : Index := 0#32
  let c0_110 : Index := 0#32
  let c0_i32 : BitVec 32 := 0#32
  let c1_i32 : BitVec 32 := 1#32
  let arg4 : BitVec 32 := Scf.iv c0_i32 c1_i32 k0_t1
  let v218 : Index := Scalar.indexCast arg4
  let c35 : Index := 35#32
  let c0_111 : Index := 0#32
  ![0, 0, v218.toNat, 35, 0]
def k0_off38 (k0_t1 : Fin k0_t1_loop.trips) : Fin 5 → Nat :=
  let c0_112 : Index := 0#32
  let c0_113 : Index := 0#32
  let c0_i32 : BitVec 32 := 0#32
  let c1_i32 : BitVec 32 := 1#32
  let arg4 : BitVec 32 := Scf.iv c0_i32 c1_i32 k0_t1
  let v224 : Index := Scalar.indexCast arg4
  let c36 : Index := 36#32
  let c0_114 : Index := 0#32
  ![0, 0, v224.toNat, 36, 0]
def k0_off39 (k0_t1 : Fin k0_t1_loop.trips) : Fin 5 → Nat :=
  let c0_115 : Index := 0#32
  let c0_116 : Index := 0#32
  let c0_i32 : BitVec 32 := 0#32
  let c1_i32 : BitVec 32 := 1#32
  let arg4 : BitVec 32 := Scf.iv c0_i32 c1_i32 k0_t1
  let v230 : Index := Scalar.indexCast arg4
  let c37 : Index := 37#32
  let c0_117 : Index := 0#32
  ![0, 0, v230.toNat, 37, 0]
def k0_off40 (k0_t1 : Fin k0_t1_loop.trips) : Fin 5 → Nat :=
  let c0_118 : Index := 0#32
  let c0_119 : Index := 0#32
  let c0_i32 : BitVec 32 := 0#32
  let c1_i32 : BitVec 32 := 1#32
  let arg4 : BitVec 32 := Scf.iv c0_i32 c1_i32 k0_t1
  let v236 : Index := Scalar.indexCast arg4
  let c38 : Index := 38#32
  let c0_120 : Index := 0#32
  ![0, 0, v236.toNat, 38, 0]
def k0_off41 (k0_t1 : Fin k0_t1_loop.trips) : Fin 5 → Nat :=
  let c0_121 : Index := 0#32
  let c0_122 : Index := 0#32
  let c0_i32 : BitVec 32 := 0#32
  let c1_i32 : BitVec 32 := 1#32
  let arg4 : BitVec 32 := Scf.iv c0_i32 c1_i32 k0_t1
  let v242 : Index := Scalar.indexCast arg4
  let c39 : Index := 39#32
  let c0_123 : Index := 0#32
  ![0, 0, v242.toNat, 39, 0]
def k0_off42 (k0_t1 : Fin k0_t1_loop.trips) : Fin 5 → Nat :=
  let c0_124 : Index := 0#32
  let c0_125 : Index := 0#32
  let c0_i32 : BitVec 32 := 0#32
  let c1_i32 : BitVec 32 := 1#32
  let arg4 : BitVec 32 := Scf.iv c0_i32 c1_i32 k0_t1
  let v248 : Index := Scalar.indexCast arg4
  let c40 : Index := 40#32
  let c0_126 : Index := 0#32
  ![0, 0, v248.toNat, 40, 0]
def k0_off43 (k0_t1 : Fin k0_t1_loop.trips) : Fin 5 → Nat :=
  let c0_127 : Index := 0#32
  let c0_128 : Index := 0#32
  let c0_i32 : BitVec 32 := 0#32
  let c1_i32 : BitVec 32 := 1#32
  let arg4 : BitVec 32 := Scf.iv c0_i32 c1_i32 k0_t1
  let v254 : Index := Scalar.indexCast arg4
  let c41 : Index := 41#32
  let c0_129 : Index := 0#32
  ![0, 0, v254.toNat, 41, 0]
def k0_off44 (k0_t1 : Fin k0_t1_loop.trips) : Fin 5 → Nat :=
  let c0_130 : Index := 0#32
  let c0_131 : Index := 0#32
  let c0_i32 : BitVec 32 := 0#32
  let c1_i32 : BitVec 32 := 1#32
  let arg4 : BitVec 32 := Scf.iv c0_i32 c1_i32 k0_t1
  let v260 : Index := Scalar.indexCast arg4
  let c42 : Index := 42#32
  let c0_132 : Index := 0#32
  ![0, 0, v260.toNat, 42, 0]
def k0_off45 (k0_t1 : Fin k0_t1_loop.trips) : Fin 5 → Nat :=
  let c0_133 : Index := 0#32
  let c0_134 : Index := 0#32
  let c0_i32 : BitVec 32 := 0#32
  let c1_i32 : BitVec 32 := 1#32
  let arg4 : BitVec 32 := Scf.iv c0_i32 c1_i32 k0_t1
  let v266 : Index := Scalar.indexCast arg4
  let c43 : Index := 43#32
  let c0_135 : Index := 0#32
  ![0, 0, v266.toNat, 43, 0]
def k0_off46 (k0_t1 : Fin k0_t1_loop.trips) : Fin 5 → Nat :=
  let c0_136 : Index := 0#32
  let c0_137 : Index := 0#32
  let c0_i32 : BitVec 32 := 0#32
  let c1_i32 : BitVec 32 := 1#32
  let arg4 : BitVec 32 := Scf.iv c0_i32 c1_i32 k0_t1
  let v272 : Index := Scalar.indexCast arg4
  let c44 : Index := 44#32
  let c0_138 : Index := 0#32
  ![0, 0, v272.toNat, 44, 0]
def k0_off47 (k0_t1 : Fin k0_t1_loop.trips) : Fin 5 → Nat :=
  let c0_139 : Index := 0#32
  let c0_140 : Index := 0#32
  let c0_i32 : BitVec 32 := 0#32
  let c1_i32 : BitVec 32 := 1#32
  let arg4 : BitVec 32 := Scf.iv c0_i32 c1_i32 k0_t1
  let v278 : Index := Scalar.indexCast arg4
  let c45 : Index := 45#32
  let c0_141 : Index := 0#32
  ![0, 0, v278.toNat, 45, 0]
def k0_off48 (k0_t1 : Fin k0_t1_loop.trips) : Fin 5 → Nat :=
  let c0_142 : Index := 0#32
  let c0_143 : Index := 0#32
  let c0_i32 : BitVec 32 := 0#32
  let c1_i32 : BitVec 32 := 1#32
  let arg4 : BitVec 32 := Scf.iv c0_i32 c1_i32 k0_t1
  let v284 : Index := Scalar.indexCast arg4
  let c46 : Index := 46#32
  let c0_144 : Index := 0#32
  ![0, 0, v284.toNat, 46, 0]
def k0_off49 (k0_t1 : Fin k0_t1_loop.trips) : Fin 5 → Nat :=
  let c0_145 : Index := 0#32
  let c0_146 : Index := 0#32
  let c0_i32 : BitVec 32 := 0#32
  let c1_i32 : BitVec 32 := 1#32
  let arg4 : BitVec 32 := Scf.iv c0_i32 c1_i32 k0_t1
  let v290 : Index := Scalar.indexCast arg4
  let c47 : Index := 47#32
  let c0_147 : Index := 0#32
  ![0, 0, v290.toNat, 47, 0]
def k0_off50 (k0_t1 : Fin k0_t1_loop.trips) : Fin 5 → Nat :=
  let c0_148 : Index := 0#32
  let c0_149 : Index := 0#32
  let c0_i32 : BitVec 32 := 0#32
  let c1_i32 : BitVec 32 := 1#32
  let arg4 : BitVec 32 := Scf.iv c0_i32 c1_i32 k0_t1
  let v296 : Index := Scalar.indexCast arg4
  let c48 : Index := 48#32
  let c0_150 : Index := 0#32
  ![0, 0, v296.toNat, 48, 0]
def k0_off51 (k0_t1 : Fin k0_t1_loop.trips) : Fin 5 → Nat :=
  let c0_151 : Index := 0#32
  let c0_152 : Index := 0#32
  let c0_i32 : BitVec 32 := 0#32
  let c1_i32 : BitVec 32 := 1#32
  let arg4 : BitVec 32 := Scf.iv c0_i32 c1_i32 k0_t1
  let v302 : Index := Scalar.indexCast arg4
  let c49 : Index := 49#32
  let c0_153 : Index := 0#32
  ![0, 0, v302.toNat, 49, 0]
def k0_off52 (k0_t1 : Fin k0_t1_loop.trips) : Fin 5 → Nat :=
  let c0_154 : Index := 0#32
  let c0_155 : Index := 0#32
  let c0_i32 : BitVec 32 := 0#32
  let c1_i32 : BitVec 32 := 1#32
  let arg4 : BitVec 32 := Scf.iv c0_i32 c1_i32 k0_t1
  let v308 : Index := Scalar.indexCast arg4
  let c50 : Index := 50#32
  let c0_156 : Index := 0#32
  ![0, 0, v308.toNat, 50, 0]
def k0_off53 (k0_t1 : Fin k0_t1_loop.trips) : Fin 5 → Nat :=
  let c0_157 : Index := 0#32
  let c0_158 : Index := 0#32
  let c0_i32 : BitVec 32 := 0#32
  let c1_i32 : BitVec 32 := 1#32
  let arg4 : BitVec 32 := Scf.iv c0_i32 c1_i32 k0_t1
  let v314 : Index := Scalar.indexCast arg4
  let c51 : Index := 51#32
  let c0_159 : Index := 0#32
  ![0, 0, v314.toNat, 51, 0]
def k0_off54 (k0_t1 : Fin k0_t1_loop.trips) : Fin 5 → Nat :=
  let c0_160 : Index := 0#32
  let c0_161 : Index := 0#32
  let c0_i32 : BitVec 32 := 0#32
  let c1_i32 : BitVec 32 := 1#32
  let arg4 : BitVec 32 := Scf.iv c0_i32 c1_i32 k0_t1
  let v320 : Index := Scalar.indexCast arg4
  let c52 : Index := 52#32
  let c0_162 : Index := 0#32
  ![0, 0, v320.toNat, 52, 0]
def k0_off55 (k0_t1 : Fin k0_t1_loop.trips) : Fin 5 → Nat :=
  let c0_163 : Index := 0#32
  let c0_164 : Index := 0#32
  let c0_i32 : BitVec 32 := 0#32
  let c1_i32 : BitVec 32 := 1#32
  let arg4 : BitVec 32 := Scf.iv c0_i32 c1_i32 k0_t1
  let v326 : Index := Scalar.indexCast arg4
  let c53 : Index := 53#32
  let c0_165 : Index := 0#32
  ![0, 0, v326.toNat, 53, 0]
def k0_off56 (k0_t1 : Fin k0_t1_loop.trips) : Fin 5 → Nat :=
  let c0_166 : Index := 0#32
  let c0_167 : Index := 0#32
  let c0_i32 : BitVec 32 := 0#32
  let c1_i32 : BitVec 32 := 1#32
  let arg4 : BitVec 32 := Scf.iv c0_i32 c1_i32 k0_t1
  let v332 : Index := Scalar.indexCast arg4
  let c54 : Index := 54#32
  let c0_168 : Index := 0#32
  ![0, 0, v332.toNat, 54, 0]
def k0_off57 (k0_t1 : Fin k0_t1_loop.trips) : Fin 5 → Nat :=
  let c0_169 : Index := 0#32
  let c0_170 : Index := 0#32
  let c0_i32 : BitVec 32 := 0#32
  let c1_i32 : BitVec 32 := 1#32
  let arg4 : BitVec 32 := Scf.iv c0_i32 c1_i32 k0_t1
  let v338 : Index := Scalar.indexCast arg4
  let c55 : Index := 55#32
  let c0_171 : Index := 0#32
  ![0, 0, v338.toNat, 55, 0]
def k0_off58 (k0_t1 : Fin k0_t1_loop.trips) : Fin 5 → Nat :=
  let c0_172 : Index := 0#32
  let c0_173 : Index := 0#32
  let c0_i32 : BitVec 32 := 0#32
  let c1_i32 : BitVec 32 := 1#32
  let arg4 : BitVec 32 := Scf.iv c0_i32 c1_i32 k0_t1
  let v344 : Index := Scalar.indexCast arg4
  let c56 : Index := 56#32
  let c0_174 : Index := 0#32
  ![0, 0, v344.toNat, 56, 0]
def k0_off59 (k0_t1 : Fin k0_t1_loop.trips) : Fin 5 → Nat :=
  let c0_175 : Index := 0#32
  let c0_176 : Index := 0#32
  let c0_i32 : BitVec 32 := 0#32
  let c1_i32 : BitVec 32 := 1#32
  let arg4 : BitVec 32 := Scf.iv c0_i32 c1_i32 k0_t1
  let v350 : Index := Scalar.indexCast arg4
  let c57 : Index := 57#32
  let c0_177 : Index := 0#32
  ![0, 0, v350.toNat, 57, 0]
def k0_off60 (k0_t1 : Fin k0_t1_loop.trips) : Fin 5 → Nat :=
  let c0_178 : Index := 0#32
  let c0_179 : Index := 0#32
  let c0_i32 : BitVec 32 := 0#32
  let c1_i32 : BitVec 32 := 1#32
  let arg4 : BitVec 32 := Scf.iv c0_i32 c1_i32 k0_t1
  let v356 : Index := Scalar.indexCast arg4
  let c58 : Index := 58#32
  let c0_180 : Index := 0#32
  ![0, 0, v356.toNat, 58, 0]
def k0_off61 (k0_t1 : Fin k0_t1_loop.trips) : Fin 5 → Nat :=
  let c0_181 : Index := 0#32
  let c0_182 : Index := 0#32
  let c0_i32 : BitVec 32 := 0#32
  let c1_i32 : BitVec 32 := 1#32
  let arg4 : BitVec 32 := Scf.iv c0_i32 c1_i32 k0_t1
  let v362 : Index := Scalar.indexCast arg4
  let c59 : Index := 59#32
  let c0_183 : Index := 0#32
  ![0, 0, v362.toNat, 59, 0]
def k0_off62 (k0_t1 : Fin k0_t1_loop.trips) : Fin 5 → Nat :=
  let c0_184 : Index := 0#32
  let c0_185 : Index := 0#32
  let c0_i32 : BitVec 32 := 0#32
  let c1_i32 : BitVec 32 := 1#32
  let arg4 : BitVec 32 := Scf.iv c0_i32 c1_i32 k0_t1
  let v368 : Index := Scalar.indexCast arg4
  let c60 : Index := 60#32
  let c0_186 : Index := 0#32
  ![0, 0, v368.toNat, 60, 0]
def k0_off63 (k0_t1 : Fin k0_t1_loop.trips) : Fin 5 → Nat :=
  let c0_187 : Index := 0#32
  let c0_188 : Index := 0#32
  let c0_i32 : BitVec 32 := 0#32
  let c1_i32 : BitVec 32 := 1#32
  let arg4 : BitVec 32 := Scf.iv c0_i32 c1_i32 k0_t1
  let v374 : Index := Scalar.indexCast arg4
  let c61 : Index := 61#32
  let c0_189 : Index := 0#32
  ![0, 0, v374.toNat, 61, 0]
def k0_off64 (k0_t1 : Fin k0_t1_loop.trips) : Fin 5 → Nat :=
  let c0_190 : Index := 0#32
  let c0_191 : Index := 0#32
  let c0_i32 : BitVec 32 := 0#32
  let c1_i32 : BitVec 32 := 1#32
  let arg4 : BitVec 32 := Scf.iv c0_i32 c1_i32 k0_t1
  let v380 : Index := Scalar.indexCast arg4
  let c62 : Index := 62#32
  let c0_192 : Index := 0#32
  ![0, 0, v380.toNat, 62, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x63x63x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  h_S1x1x16x512 : 0 < S1x1x16x512.numel
  shapeCasts_S1x1x16x512_S16x512 : S1x1x16x512.ShapeCasts S16x512
  slices_S16x512_o0_0_S16x16 : S16x512.Slices ![0, 0] S16x16
  shapeCasts_S16x16_S256 : S16x16.ShapeCasts S256
  h_S1x1x1x1x256 : 0 < S1x1x1x1x256.numel
  shapeCasts_S1x1x1x1x256_S256 : S1x1x1x1x256.ShapeCasts S256
  shapeCasts_S256_S1x1x1x1x256 : S256.ShapeCasts S1x1x1x1x256
  slices_S16x512_o0_8_S16x16 : S16x512.Slices ![0, 8] S16x16
  slices_S16x512_o0_16_S16x16 : S16x512.Slices ![0, 16] S16x16
  slices_S16x512_o0_24_S16x16 : S16x512.Slices ![0, 24] S16x16
  slices_S16x512_o0_32_S16x16 : S16x512.Slices ![0, 32] S16x16
  slices_S16x512_o0_40_S16x16 : S16x512.Slices ![0, 40] S16x16
  slices_S16x512_o0_48_S16x16 : S16x512.Slices ![0, 48] S16x16
  slices_S16x512_o0_56_S16x16 : S16x512.Slices ![0, 56] S16x16
  slices_S16x512_o0_64_S16x16 : S16x512.Slices ![0, 64] S16x16
  slices_S16x512_o0_72_S16x16 : S16x512.Slices ![0, 72] S16x16
  slices_S16x512_o0_80_S16x16 : S16x512.Slices ![0, 80] S16x16
  slices_S16x512_o0_88_S16x16 : S16x512.Slices ![0, 88] S16x16
  slices_S16x512_o0_96_S16x16 : S16x512.Slices ![0, 96] S16x16
  slices_S16x512_o0_104_S16x16 : S16x512.Slices ![0, 104] S16x16
  slices_S16x512_o0_112_S16x16 : S16x512.Slices ![0, 112] S16x16
  slices_S16x512_o0_120_S16x16 : S16x512.Slices ![0, 120] S16x16
  slices_S16x512_o0_128_S16x16 : S16x512.Slices ![0, 128] S16x16
  slices_S16x512_o0_136_S16x16 : S16x512.Slices ![0, 136] S16x16
  slices_S16x512_o0_144_S16x16 : S16x512.Slices ![0, 144] S16x16
  slices_S16x512_o0_152_S16x16 : S16x512.Slices ![0, 152] S16x16
  slices_S16x512_o0_160_S16x16 : S16x512.Slices ![0, 160] S16x16
  slices_S16x512_o0_168_S16x16 : S16x512.Slices ![0, 168] S16x16
  slices_S16x512_o0_176_S16x16 : S16x512.Slices ![0, 176] S16x16
  slices_S16x512_o0_184_S16x16 : S16x512.Slices ![0, 184] S16x16
  slices_S16x512_o0_192_S16x16 : S16x512.Slices ![0, 192] S16x16
  slices_S16x512_o0_200_S16x16 : S16x512.Slices ![0, 200] S16x16
  slices_S16x512_o0_208_S16x16 : S16x512.Slices ![0, 208] S16x16
  slices_S16x512_o0_216_S16x16 : S16x512.Slices ![0, 216] S16x16
  slices_S16x512_o0_224_S16x16 : S16x512.Slices ![0, 224] S16x16
  slices_S16x512_o0_232_S16x16 : S16x512.Slices ![0, 232] S16x16
  slices_S16x512_o0_240_S16x16 : S16x512.Slices ![0, 240] S16x16
  slices_S16x512_o0_248_S16x16 : S16x512.Slices ![0, 248] S16x16
  slices_S16x512_o0_256_S16x16 : S16x512.Slices ![0, 256] S16x16
  slices_S16x512_o0_264_S16x16 : S16x512.Slices ![0, 264] S16x16
  slices_S16x512_o0_272_S16x16 : S16x512.Slices ![0, 272] S16x16
  slices_S16x512_o0_280_S16x16 : S16x512.Slices ![0, 280] S16x16
  slices_S16x512_o0_288_S16x16 : S16x512.Slices ![0, 288] S16x16
  slices_S16x512_o0_296_S16x16 : S16x512.Slices ![0, 296] S16x16
  slices_S16x512_o0_304_S16x16 : S16x512.Slices ![0, 304] S16x16
  slices_S16x512_o0_312_S16x16 : S16x512.Slices ![0, 312] S16x16
  slices_S16x512_o0_320_S16x16 : S16x512.Slices ![0, 320] S16x16
  slices_S16x512_o0_328_S16x16 : S16x512.Slices ![0, 328] S16x16
  slices_S16x512_o0_336_S16x16 : S16x512.Slices ![0, 336] S16x16
  slices_S16x512_o0_344_S16x16 : S16x512.Slices ![0, 344] S16x16
  slices_S16x512_o0_352_S16x16 : S16x512.Slices ![0, 352] S16x16
  slices_S16x512_o0_360_S16x16 : S16x512.Slices ![0, 360] S16x16
  slices_S16x512_o0_368_S16x16 : S16x512.Slices ![0, 368] S16x16
  slices_S16x512_o0_376_S16x16 : S16x512.Slices ![0, 376] S16x16
  slices_S16x512_o0_384_S16x16 : S16x512.Slices ![0, 384] S16x16
  slices_S16x512_o0_392_S16x16 : S16x512.Slices ![0, 392] S16x16
  slices_S16x512_o0_400_S16x16 : S16x512.Slices ![0, 400] S16x16
  slices_S16x512_o0_408_S16x16 : S16x512.Slices ![0, 408] S16x16
  slices_S16x512_o0_416_S16x16 : S16x512.Slices ![0, 416] S16x16
  slices_S16x512_o0_424_S16x16 : S16x512.Slices ![0, 424] S16x16
  slices_S16x512_o0_432_S16x16 : S16x512.Slices ![0, 432] S16x16
  slices_S16x512_o0_440_S16x16 : S16x512.Slices ![0, 440] S16x16
  slices_S16x512_o0_448_S16x16 : S16x512.Slices ![0, 448] S16x16
  slices_S16x512_o0_456_S16x16 : S16x512.Slices ![0, 456] S16x16
  slices_S16x512_o0_464_S16x16 : S16x512.Slices ![0, 464] S16x16
  slices_S16x512_o0_472_S16x16 : S16x512.Slices ![0, 472] S16x16
  slices_S16x512_o0_480_S16x16 : S16x512.Slices ![0, 480] S16x16
  slices_S16x512_o0_488_S16x16 : S16x512.Slices ![0, 488] S16x16
  slices_S16x512_o0_496_S16x16 : S16x512.Slices ![0, 496] S16x16
  shapeCasts_S4x8x63x63x256_S4x8x3969x16x16 : S4x8x63x63x256.ShapeCasts S4x8x3969x16x16
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x1x16x512.size a ≤ S1x1x512x512.size a
  k0_off2_inb : ∀ k0_t1 : Fin k0_t1_loop.trips, ∀ a, (k0_off2 k0_t1) a + S1x1x1x1x256.size a ≤ S1x1x63x63x256.size a
  k0_off3_inb : ∀ k0_t1 : Fin k0_t1_loop.trips, ∀ a, (k0_off3 k0_t1) a + S1x1x1x1x256.size a ≤ S1x1x63x63x256.size a
  k0_off4_inb : ∀ k0_t1 : Fin k0_t1_loop.trips, ∀ a, (k0_off4 k0_t1) a + S1x1x1x1x256.size a ≤ S1x1x63x63x256.size a
  k0_off5_inb : ∀ k0_t1 : Fin k0_t1_loop.trips, ∀ a, (k0_off5 k0_t1) a + S1x1x1x1x256.size a ≤ S1x1x63x63x256.size a
  k0_off6_inb : ∀ k0_t1 : Fin k0_t1_loop.trips, ∀ a, (k0_off6 k0_t1) a + S1x1x1x1x256.size a ≤ S1x1x63x63x256.size a
  k0_off7_inb : ∀ k0_t1 : Fin k0_t1_loop.trips, ∀ a, (k0_off7 k0_t1) a + S1x1x1x1x256.size a ≤ S1x1x63x63x256.size a
  k0_off8_inb : ∀ k0_t1 : Fin k0_t1_loop.trips, ∀ a, (k0_off8 k0_t1) a + S1x1x1x1x256.size a ≤ S1x1x63x63x256.size a
  k0_off9_inb : ∀ k0_t1 : Fin k0_t1_loop.trips, ∀ a, (k0_off9 k0_t1) a + S1x1x1x1x256.size a ≤ S1x1x63x63x256.size a
  k0_off10_inb : ∀ k0_t1 : Fin k0_t1_loop.trips, ∀ a, (k0_off10 k0_t1) a + S1x1x1x1x256.size a ≤ S1x1x63x63x256.size a
  k0_off11_inb : ∀ k0_t1 : Fin k0_t1_loop.trips, ∀ a, (k0_off11 k0_t1) a + S1x1x1x1x256.size a ≤ S1x1x63x63x256.size a
  k0_off12_inb : ∀ k0_t1 : Fin k0_t1_loop.trips, ∀ a, (k0_off12 k0_t1) a + S1x1x1x1x256.size a ≤ S1x1x63x63x256.size a
  k0_off13_inb : ∀ k0_t1 : Fin k0_t1_loop.trips, ∀ a, (k0_off13 k0_t1) a + S1x1x1x1x256.size a ≤ S1x1x63x63x256.size a
  k0_off14_inb : ∀ k0_t1 : Fin k0_t1_loop.trips, ∀ a, (k0_off14 k0_t1) a + S1x1x1x1x256.size a ≤ S1x1x63x63x256.size a
  k0_off15_inb : ∀ k0_t1 : Fin k0_t1_loop.trips, ∀ a, (k0_off15 k0_t1) a + S1x1x1x1x256.size a ≤ S1x1x63x63x256.size a
  k0_off16_inb : ∀ k0_t1 : Fin k0_t1_loop.trips, ∀ a, (k0_off16 k0_t1) a + S1x1x1x1x256.size a ≤ S1x1x63x63x256.size a
  k0_off17_inb : ∀ k0_t1 : Fin k0_t1_loop.trips, ∀ a, (k0_off17 k0_t1) a + S1x1x1x1x256.size a ≤ S1x1x63x63x256.size a
  k0_off18_inb : ∀ k0_t1 : Fin k0_t1_loop.trips, ∀ a, (k0_off18 k0_t1) a + S1x1x1x1x256.size a ≤ S1x1x63x63x256.size a
  k0_off19_inb : ∀ k0_t1 : Fin k0_t1_loop.trips, ∀ a, (k0_off19 k0_t1) a + S1x1x1x1x256.size a ≤ S1x1x63x63x256.size a
  k0_off20_inb : ∀ k0_t1 : Fin k0_t1_loop.trips, ∀ a, (k0_off20 k0_t1) a + S1x1x1x1x256.size a ≤ S1x1x63x63x256.size a
  k0_off21_inb : ∀ k0_t1 : Fin k0_t1_loop.trips, ∀ a, (k0_off21 k0_t1) a + S1x1x1x1x256.size a ≤ S1x1x63x63x256.size a
  k0_off22_inb : ∀ k0_t1 : Fin k0_t1_loop.trips, ∀ a, (k0_off22 k0_t1) a + S1x1x1x1x256.size a ≤ S1x1x63x63x256.size a
  k0_off23_inb : ∀ k0_t1 : Fin k0_t1_loop.trips, ∀ a, (k0_off23 k0_t1) a + S1x1x1x1x256.size a ≤ S1x1x63x63x256.size a
  k0_off24_inb : ∀ k0_t1 : Fin k0_t1_loop.trips, ∀ a, (k0_off24 k0_t1) a + S1x1x1x1x256.size a ≤ S1x1x63x63x256.size a
  k0_off25_inb : ∀ k0_t1 : Fin k0_t1_loop.trips, ∀ a, (k0_off25 k0_t1) a + S1x1x1x1x256.size a ≤ S1x1x63x63x256.size a
  k0_off26_inb : ∀ k0_t1 : Fin k0_t1_loop.trips, ∀ a, (k0_off26 k0_t1) a + S1x1x1x1x256.size a ≤ S1x1x63x63x256.size a
  k0_off27_inb : ∀ k0_t1 : Fin k0_t1_loop.trips, ∀ a, (k0_off27 k0_t1) a + S1x1x1x1x256.size a ≤ S1x1x63x63x256.size a
  k0_off28_inb : ∀ k0_t1 : Fin k0_t1_loop.trips, ∀ a, (k0_off28 k0_t1) a + S1x1x1x1x256.size a ≤ S1x1x63x63x256.size a
  k0_off29_inb : ∀ k0_t1 : Fin k0_t1_loop.trips, ∀ a, (k0_off29 k0_t1) a + S1x1x1x1x256.size a ≤ S1x1x63x63x256.size a
  k0_off30_inb : ∀ k0_t1 : Fin k0_t1_loop.trips, ∀ a, (k0_off30 k0_t1) a + S1x1x1x1x256.size a ≤ S1x1x63x63x256.size a
  k0_off31_inb : ∀ k0_t1 : Fin k0_t1_loop.trips, ∀ a, (k0_off31 k0_t1) a + S1x1x1x1x256.size a ≤ S1x1x63x63x256.size a
  k0_off32_inb : ∀ k0_t1 : Fin k0_t1_loop.trips, ∀ a, (k0_off32 k0_t1) a + S1x1x1x1x256.size a ≤ S1x1x63x63x256.size a
  k0_off33_inb : ∀ k0_t1 : Fin k0_t1_loop.trips, ∀ a, (k0_off33 k0_t1) a + S1x1x1x1x256.size a ≤ S1x1x63x63x256.size a
  k0_off34_inb : ∀ k0_t1 : Fin k0_t1_loop.trips, ∀ a, (k0_off34 k0_t1) a + S1x1x1x1x256.size a ≤ S1x1x63x63x256.size a
  k0_off35_inb : ∀ k0_t1 : Fin k0_t1_loop.trips, ∀ a, (k0_off35 k0_t1) a + S1x1x1x1x256.size a ≤ S1x1x63x63x256.size a
  k0_off36_inb : ∀ k0_t1 : Fin k0_t1_loop.trips, ∀ a, (k0_off36 k0_t1) a + S1x1x1x1x256.size a ≤ S1x1x63x63x256.size a
  k0_off37_inb : ∀ k0_t1 : Fin k0_t1_loop.trips, ∀ a, (k0_off37 k0_t1) a + S1x1x1x1x256.size a ≤ S1x1x63x63x256.size a
  k0_off38_inb : ∀ k0_t1 : Fin k0_t1_loop.trips, ∀ a, (k0_off38 k0_t1) a + S1x1x1x1x256.size a ≤ S1x1x63x63x256.size a
  k0_off39_inb : ∀ k0_t1 : Fin k0_t1_loop.trips, ∀ a, (k0_off39 k0_t1) a + S1x1x1x1x256.size a ≤ S1x1x63x63x256.size a
  k0_off40_inb : ∀ k0_t1 : Fin k0_t1_loop.trips, ∀ a, (k0_off40 k0_t1) a + S1x1x1x1x256.size a ≤ S1x1x63x63x256.size a
  k0_off41_inb : ∀ k0_t1 : Fin k0_t1_loop.trips, ∀ a, (k0_off41 k0_t1) a + S1x1x1x1x256.size a ≤ S1x1x63x63x256.size a
  k0_off42_inb : ∀ k0_t1 : Fin k0_t1_loop.trips, ∀ a, (k0_off42 k0_t1) a + S1x1x1x1x256.size a ≤ S1x1x63x63x256.size a
  k0_off43_inb : ∀ k0_t1 : Fin k0_t1_loop.trips, ∀ a, (k0_off43 k0_t1) a + S1x1x1x1x256.size a ≤ S1x1x63x63x256.size a
  k0_off44_inb : ∀ k0_t1 : Fin k0_t1_loop.trips, ∀ a, (k0_off44 k0_t1) a + S1x1x1x1x256.size a ≤ S1x1x63x63x256.size a
  k0_off45_inb : ∀ k0_t1 : Fin k0_t1_loop.trips, ∀ a, (k0_off45 k0_t1) a + S1x1x1x1x256.size a ≤ S1x1x63x63x256.size a
  k0_off46_inb : ∀ k0_t1 : Fin k0_t1_loop.trips, ∀ a, (k0_off46 k0_t1) a + S1x1x1x1x256.size a ≤ S1x1x63x63x256.size a
  k0_off47_inb : ∀ k0_t1 : Fin k0_t1_loop.trips, ∀ a, (k0_off47 k0_t1) a + S1x1x1x1x256.size a ≤ S1x1x63x63x256.size a
  k0_off48_inb : ∀ k0_t1 : Fin k0_t1_loop.trips, ∀ a, (k0_off48 k0_t1) a + S1x1x1x1x256.size a ≤ S1x1x63x63x256.size a
  k0_off49_inb : ∀ k0_t1 : Fin k0_t1_loop.trips, ∀ a, (k0_off49 k0_t1) a + S1x1x1x1x256.size a ≤ S1x1x63x63x256.size a
  k0_off50_inb : ∀ k0_t1 : Fin k0_t1_loop.trips, ∀ a, (k0_off50 k0_t1) a + S1x1x1x1x256.size a ≤ S1x1x63x63x256.size a
  k0_off51_inb : ∀ k0_t1 : Fin k0_t1_loop.trips, ∀ a, (k0_off51 k0_t1) a + S1x1x1x1x256.size a ≤ S1x1x63x63x256.size a
  k0_off52_inb : ∀ k0_t1 : Fin k0_t1_loop.trips, ∀ a, (k0_off52 k0_t1) a + S1x1x1x1x256.size a ≤ S1x1x63x63x256.size a
  k0_off53_inb : ∀ k0_t1 : Fin k0_t1_loop.trips, ∀ a, (k0_off53 k0_t1) a + S1x1x1x1x256.size a ≤ S1x1x63x63x256.size a
  k0_off54_inb : ∀ k0_t1 : Fin k0_t1_loop.trips, ∀ a, (k0_off54 k0_t1) a + S1x1x1x1x256.size a ≤ S1x1x63x63x256.size a
  k0_off55_inb : ∀ k0_t1 : Fin k0_t1_loop.trips, ∀ a, (k0_off55 k0_t1) a + S1x1x1x1x256.size a ≤ S1x1x63x63x256.size a
  k0_off56_inb : ∀ k0_t1 : Fin k0_t1_loop.trips, ∀ a, (k0_off56 k0_t1) a + S1x1x1x1x256.size a ≤ S1x1x63x63x256.size a
  k0_off57_inb : ∀ k0_t1 : Fin k0_t1_loop.trips, ∀ a, (k0_off57 k0_t1) a + S1x1x1x1x256.size a ≤ S1x1x63x63x256.size a
  k0_off58_inb : ∀ k0_t1 : Fin k0_t1_loop.trips, ∀ a, (k0_off58 k0_t1) a + S1x1x1x1x256.size a ≤ S1x1x63x63x256.size a
  k0_off59_inb : ∀ k0_t1 : Fin k0_t1_loop.trips, ∀ a, (k0_off59 k0_t1) a + S1x1x1x1x256.size a ≤ S1x1x63x63x256.size a
  k0_off60_inb : ∀ k0_t1 : Fin k0_t1_loop.trips, ∀ a, (k0_off60 k0_t1) a + S1x1x1x1x256.size a ≤ S1x1x63x63x256.size a
  k0_off61_inb : ∀ k0_t1 : Fin k0_t1_loop.trips, ∀ a, (k0_off61 k0_t1) a + S1x1x1x1x256.size a ≤ S1x1x63x63x256.size a
  k0_off62_inb : ∀ k0_t1 : Fin k0_t1_loop.trips, ∀ a, (k0_off62 k0_t1) a + S1x1x1x1x256.size a ≤ S1x1x63x63x256.size a
  k0_off63_inb : ∀ k0_t1 : Fin k0_t1_loop.trips, ∀ a, (k0_off63 k0_t1) a + S1x1x1x1x256.size a ≤ S1x1x63x63x256.size a
  k0_off64_inb : ∀ k0_t1 : Fin k0_t1_loop.trips, ∀ a, (k0_off64 k0_t1) a + S1x1x1x1x256.size a ≤ S1x1x63x63x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S4x8x512x512.size a
  hwx0_0 : ∀ i : grid0.Coords, EltTy.bits .f32 = 32 ∨ (Rect.block (s := S4x8x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x63x63x256.size a ≤ S4x8x63x63x256.size a
  hwx0_1 : ∀ i : grid0.Coords, EltTy.bits .f32 = 32 ∨ (Rect.block (s := S4x8x63x63x256) S1x1x63x63x256.size (cc0_transform_1 i) (hinb0_1 i)).WholeWords (EltTy.packing .f32)

variable [Facts₀]

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x63x63x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x8x512x512 : Shape := ⟨4, ![4, 8, 512, 512]⟩
abbrev S63 : Shape := ⟨1, ![63]⟩
abbrev S_ : Shape := ⟨0, ![]⟩
abbrev S63x1 : Shape := ⟨2, ![63, 1]⟩
abbrev S16 : Shape := ⟨1, ![16]⟩
abbrev S1x16 : Shape := ⟨2, ![1, 16]⟩
abbrev S63x16 : Shape := ⟨2, ![63, 16]⟩
abbrev S63x1x16x1 : Shape := ⟨4, ![63, 1, 16, 1]⟩
abbrev S1x63x1x16 : Shape := ⟨4, ![1, 63, 1, 16]⟩
abbrev S63x63x16x16 : Shape := ⟨4, ![63, 63, 16, 16]⟩
abbrev S63x63x16x16x1 : Shape := ⟨5, ![63, 63, 16, 16, 1]⟩
abbrev S63x63x16x16x2 : Shape := ⟨5, ![63, 63, 16, 16, 2]⟩
abbrev S4x8x63x63x16x16 : Shape := ⟨6, ![4, 8, 63, 63, 16, 16]⟩
abbrev S4x8x3969x16x16 : Shape := ⟨5, ![4, 8, 3969, 16, 16]⟩

abbrev nBuf : Space → Nat
  | .hbm => 44
  | .vmem => 0
  | .smem => 0
  | _ => 0

abbrev bufTy : (tb : Table) → Fin (tcTables nBuf tb) → BufTy
  | .hbm, ⟨0, _⟩ => ⟨S4x8x512x512, .f32⟩
  | .hbm, ⟨1, _⟩ => ⟨S63, .i32⟩
  | .hbm, ⟨2, _⟩ => ⟨S_, .i32⟩
  | .hbm, ⟨3, _⟩ => ⟨S63, .i32⟩
  | .hbm, ⟨4, _⟩ => ⟨S63, .i32⟩
  | .hbm, ⟨5, _⟩ => ⟨S63x1, .i32⟩
  | .hbm, ⟨6, _⟩ => ⟨S16, .i32⟩
  | .hbm, ⟨7, _⟩ => ⟨S1x16, .i32⟩
  | .hbm, ⟨8, _⟩ => ⟨S63x16, .i32⟩
  | .hbm, ⟨9, _⟩ => ⟨S63x16, .i32⟩
  | .hbm, ⟨10, _⟩ => ⟨S63x16, .i32⟩
  | .hbm, ⟨11, _⟩ => ⟨S63, .i32⟩
  | .hbm, ⟨12, _⟩ => ⟨S_, .i32⟩
  | .hbm, ⟨13, _⟩ => ⟨S63, .i32⟩
  | .hbm, ⟨14, _⟩ => ⟨S63, .i32⟩
  | .hbm, ⟨15, _⟩ => ⟨S63x1, .i32⟩
  | .hbm, ⟨16, _⟩ => ⟨S16, .i32⟩
  | .hbm, ⟨17, _⟩ => ⟨S1x16, .i32⟩
  | .hbm, ⟨18, _⟩ => ⟨S63x16, .i32⟩
  | .hbm, ⟨19, _⟩ => ⟨S63x16, .i32⟩
  | .hbm, ⟨20, _⟩ => ⟨S63x16, .i32⟩
  | .hbm, ⟨21, _⟩ => ⟨S63x1x16x1, .i32⟩
  | .hbm, ⟨22, _⟩ => ⟨S1x63x1x16, .i32⟩
  | .hbm, ⟨23, _⟩ => ⟨S_, .i32⟩
  | .hbm, ⟨24, _⟩ => ⟨S63x1x16x1, .i32⟩
  | .hbm, ⟨25, _⟩ => ⟨S63x1x16x1, .i1⟩
  | .hbm, ⟨26, _⟩ => ⟨S_, .i32⟩
  | .hbm, ⟨27, _⟩ => ⟨S63x1x16x1, .i32⟩
  | .hbm, ⟨28, _⟩ => ⟨S63x1x16x1, .i32⟩
  | .hbm, ⟨29, _⟩ => ⟨S63x1x16x1, .i32⟩
  | .hbm, ⟨30, _⟩ => ⟨S_, .i32⟩
  | .hbm, ⟨31, _⟩ => ⟨S1x63x1x16, .i32⟩
  | .hbm, ⟨32, _⟩ => ⟨S1x63x1x16, .i1⟩
  | .hbm, ⟨33, _⟩ => ⟨S_, .i32⟩
  | .hbm, ⟨34, _⟩ => ⟨S1x63x1x16, .i32⟩
  | .hbm, ⟨35, _⟩ => ⟨S1x63x1x16, .i32⟩
  | .hbm, ⟨36, _⟩ => ⟨S1x63x1x16, .i32⟩
  | .hbm, ⟨37, _⟩ => ⟨S63x63x16x16, .i32⟩
  | .hbm, ⟨38, _⟩ => ⟨S63x63x16x16, .i32⟩
  | .hbm, ⟨39, _⟩ => ⟨S63x63x16x16x1, .i32⟩
  | .hbm, ⟨40, _⟩ => ⟨S63x63x16x16x1, .i32⟩
  | .hbm, ⟨41, _⟩ => ⟨S63x63x16x16x2, .i32⟩
  | .hbm, ⟨42, _⟩ => ⟨S4x8x63x63x16x16, .f32⟩
  | .hbm, ⟨43, _⟩ => ⟨S4x8x3969x16x16, .f32⟩
  | _, _ => ⟨S4x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c_1 : Ref sig .tc := ⟨.hbm, 23, rfl⟩
abbrev main_v20 : Ref sig .tc := ⟨.hbm, 24, rfl⟩
abbrev main_v21 : Ref sig .tc := ⟨.hbm, 25, rfl⟩
abbrev main_c_2 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_3 : Ref sig .tc := ⟨.hbm, 30, rfl⟩
abbrev main_v25 : Ref sig .tc := ⟨.hbm, 31, rfl⟩
abbrev main_v26 : Ref sig .tc := ⟨.hbm, 32, rfl⟩
abbrev main_c_4 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]

class Facts₀ : Prop where
  bcast_S_S63 : S_.BroadcastsInDim S63 (![] : Fin 0 → Fin S63.rank)
  bcast_S63_S63x1_0 : S63.BroadcastsInDim S63x1 (![0] : Fin 1 → Fin S63x1.rank)
  bcast_S16_S1x16_1 : S16.BroadcastsInDim S1x16 (![1] : Fin 1 → Fin S1x16.rank)
  bcast_S63x1_S63x16_0_1 : S63x1.BroadcastsInDim S63x16 (![0, 1] : Fin 2 → Fin S63x16.rank)
  bcast_S1x16_S63x16_0_1 : S1x16.BroadcastsInDim S63x16 (![0, 1] : Fin 2 → Fin S63x16.rank)
  bcast_S63x16_S63x1x16x1_0_2 : S63x16.BroadcastsInDim S63x1x16x1 (![0, 2] : Fin 2 → Fin S63x1x16x1.rank)
  bcast_S63x16_S1x63x1x16_1_3 : S63x16.BroadcastsInDim S1x63x1x16 (![1, 3] : Fin 2 → Fin S1x63x1x16.rank)
  bcast_S_S63x1x16x1 : S_.BroadcastsInDim S63x1x16x1 (![] : Fin 0 → Fin S63x1x16x1.rank)
  bcast_S_S1x63x1x16 : S_.BroadcastsInDim S1x63x1x16 (![] : Fin 0 → Fin S1x63x1x16.rank)
  bcast_S63x1x16x1_S63x63x16x16_0_1_2_3 : S63x1x16x1.BroadcastsInDim S63x63x16x16 (![0, 1, 2, 3] : Fin 4 → Fin S63x63x16x16.rank)
  bcast_S1x63x1x16_S63x63x16x16_0_1_2_3 : S1x63x1x16.BroadcastsInDim S63x63x16x16 (![0, 1, 2, 3] : Fin 4 → Fin S63x63x16x16.rank)
  bcast_S63x63x16x16_S63x63x16x16x1_0_1_2_3 : S63x63x16x16.BroadcastsInDim S63x63x16x16x1 (![0, 1, 2, 3] : Fin 4 → Fin S63x63x16x16x1.rank)
  concatenates_S63x63x16x16x1_S63x63x16x16x1_S63x63x16x16x2_d4 : Shape.Concatenates [S63x63x16x16x1, S63x63x16x16x1] S63x63x16x16x2 4
  shapeCasts_S4x8x63x63x16x16_S4x8x3969x16x16 : S4x8x63x63x16x16.ShapeCasts S4x8x3969x16x16
  gather_S4x8x512x512_S63x63x16x16x2_S4x8x63x63x16x16_01_23_n_n_23_4_4811_wf : GatherDims.WF S4x8x512x512 S63x63x16x16x2 S4x8x63x63x16x16 [0, 1] [2, 3] [] [2, 3] [] 4 ![4, 8, 1, 1]

variable [Facts₀]

def gather_S4x8x512x512_S63x63x16x16x2_S4x8x63x63x16x16_01_23_n_n_23_4_4811 : GatherDims S4x8x512x512 S63x63x16x16x2 S4x8x63x63x16x16 where
  offsetDims := [0, 1]
  collapsedSliceDims := [2, 3]
  operandBatchingDims := []
  startIndicesBatchingDims := []
  startIndexMap := [2, 3]
  indexVectorDim := 4
  sliceSizes := ![4, 8, 1, 1]
  wf := gather_S4x8x512x512_S63x63x16x16x2_S4x8x63x63x16x16_01_23_n_n_23_4_4811_wf

class Facts : Prop extends Facts₀ where

variable [Facts]
-- ==== Proof.PatchBlock.lean ====
/-
  One grid point's share of the windows. A grid point `(b, c)` holds one 512 × 512 plane as a block of shape
  `[1, 1, 512, 512]` and fills a block of shape `[1, 1, 63, 63, 256]`: entry `(0, 0, i, j, l)` is the plane's element
  at row `8·i + l / 16`, column `8·j + l % 16` — window `(i, j)` flattened row by row into 256 entries.
  The body produces it one row of windows per loop trip: trip `i` loads the band of rows `8·i … 8·i + 15` (a
  `[1, 1, 16, 512]` value), and for each `j` stores the 16 × 16 slice at columns `8·j … 8·j + 15` of that band,
  flattened, at `(0, 0, i, j, ·)`. This file reads that flattened slice at an index and states the block's function.
  Everything is re-indexing, so the value type is arbitrary.
-/
import Idealize.ShloMosaic.Lib.ValueIdx
import Idealize.ShloMosaic.Lib.Pipeline.Value

namespace Cert.Patch

open Idealize.ShloMosaic Idealize.ShloMosaic.ValueIdx

/-- The plane a grid point reads, the block it fills, a band of sixteen rows, and one flattened window. -/
abbrev SPlane : Shape := ⟨4, ![1, 1, 512, 512]⟩
abbrev SBlock : Shape := ⟨5, ![1, 1, 63, 63, 256]⟩
abbrev SBand : Shape := ⟨4, ![1, 1, 16, 512]⟩
abbrev SFlat : Shape := ⟨5, ![1, 1, 1, 1, 256]⟩

theorem blockRow_lt {i l : Nat} (hi : i < 63) (hl : l < 256) : 8 * i + l / 16 < 512 := by omega
theorem blockCol_lt {j l : Nat} (hj : j < 63) : 8 * j + l % 16 < 512 := by omega

/-- The plane's element that block entry `(0, 0, i, j, l)` copies: row `8·i + l / 16`, column `8·j + l % 16`. -/
def blockSrc (y : SBlock.Idx) : SPlane.Idx :=
  ix4 (0 : Fin 1) (0 : Fin 1) (⟨8 * (y 2).val + (y 4).val / 16, blockRow_lt (y 2).isLt (y 4).isLt⟩ : Fin 512)
    (⟨8 * (y 3).val + (y 4).val % 16, blockCol_lt (y 3).isLt⟩ : Fin 512)

/-- The block a grid point fills, as a function of the plane it reads. -/
def blockWindows {α : Type} (x : SPlane.Idx → α) : SBlock.Idx → α := fun y => x (blockSrc y)

/-- The 16 × 16 slice at column `c` of a band, flattened to 256 entries and given four leading unit axes, read at an
    index: entry `l` is the band's element at row `l / 16`, column `c + l % 16`. -/
theorem flatSlice_apply {α : Type} (v : SBand.Idx → α) (c : Nat)
    (h1 : SBand.ShapeCasts ⟨2, ![16, 512]⟩) (hs : (⟨2, ![16, 512]⟩ : Shape).Slices ![0, c] ⟨2, ![16, 16]⟩)
    (h2 : (⟨2, ![16, 16]⟩ : Shape).ShapeCasts ⟨1, ![256]⟩) (h3 : (⟨1, ![256]⟩ : Shape).ShapeCasts SFlat)
    (x : SFlat.Idx) (hc : c + 16 ≤ 512) :
    shapeCast SFlat (shapeCast ⟨1, ![256]⟩ (extractStridedSlice ⟨2, ![16, 16]⟩ ![0, c] (shapeCast ⟨2, ![16, 512]⟩ v h1) hs) h2) h3 x
      = v (ix4 (0 : Fin 1) (0 : Fin 1) (⟨(x 4).val / 16, by have := (x 4).isLt; show _ < 16; simp at this; omega⟩ : Fin 16)
          (⟨c + (x 4).val % 16, by omega⟩ : Fin 512)) := by
  have h0 : (x 0).val = 0 := by have := (x 0).isLt; simp at this; omega
  have h1' : (x 1).val = 0 := by have := (x 1).isLt; simp at this; omega
  have h2' : (x 2).val = 0 := by have := (x 2).isLt; simp at this; omega
  have h3' : (x 3).val = 0 := by have := (x 3).isLt; simp at this; omega
  have h4 : (x 4).val < 256 := by have := (x 4).isLt; simp at this; omega
  refine (shapeCast_apply _ h3 x (ix1 (⟨(x 4).val, h4⟩ : Fin 256)) ?_).trans ?_
  · rw [Shape.rowMajor_val_one, Shape.rowMajor_val_five, h0, h1', h2', h3']
    simp
  refine (shapeCast_apply _ h2 _ (ix2 (⟨(x 4).val / 16, by omega⟩ : Fin 16) (⟨(x 4).val % 16, by omega⟩ : Fin 16)) ?_).trans ?_
  · rw [Shape.rowMajor_val_two, Shape.rowMajor_val_one]
    show (x 4).val / 16 * 16 + (x 4).val % 16 = (x 4).val
    omega
  refine (extractStridedSlice_apply _ _ hs _ (ix2 (⟨(x 4).val / 16, by omega⟩ : Fin 16) (⟨c + (x 4).val % 16, by omega⟩ : Fin 512)) ?_).trans ?_
  · intro a
    match a with
    | ⟨0, _⟩ => show (x 4).val / 16 = 0 + (x 4).val / 16; omega
    | ⟨1, _⟩ => rfl
  refine shapeCast_apply _ h1 _ _ ?_
  rw [Shape.rowMajor_val_four, Shape.rowMajor_val_two]
  show ((0 * 1 + 0) * 16 + (x 4).val / 16) * 512 + (c + (x 4).val % 16) = (x 4).val / 16 * 512 + (c + (x 4).val % 16)
  omega

end Cert.Patch
-- ==== Proof.RowsBits.lean ====
/-
  One trip of the body's loop writes one row of windows. The body's loop runs `i = 0 … 62`; trip `i` loads the band of
  rows `8·i … 8·i + 15` of the plane and stores, for `j = 0 … 62`, the 16 × 16 slice at columns `8·j … 8·j + 15` of
  the band, flattened to 256 entries, at `(0, 0, i, j, ·)` of the block (each store preceded by a load of the same
  256 entries, whose value is dropped). So the invariant is pointwise: before trip `k` every entry `(0, 0, i, j, l)`
  with `i < k` already holds the plane's element at row `8·i + l / 16`, column `8·j + l % 16`
  (`Cert.Patch.blockWindows`), whatever the rest of the buffer holds. One trip keeps the rows before `k` (its 63
  rectangles all lie in row `k`) and fills row `k` (the 63 rectangles are the columns `0 … 62` of row `k`, and each
  payload is the block's function on its rectangle); after the last trip every row is in place.
-/
import proofs.«144471_j63642825392255_2_alg».proof.Proof.Gen.Kernel.Frame
import proofs.«144471_j63642825392255_2_alg».proof.Proof.Gen.Kernel.Loops
import proofs.«144471_j63642825392255_2_alg».proof.Proof.PatchBlock
import Idealize.ShloMosaic.Lib.WritesUnit

set_option maxRecDepth 16384

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of windows `0 … k - 1` of the block are in place: entry `(0, 0, i, j, l)` with `i < k` is the plane's
    element at row `8·i + l / 16`, column `8·j + l % 16`. -/
def RowsDone (arg2 : Memref sig .tc .vmem S1x1x512x512 .f32) (arg3 : Memref sig .tc .vmem S1x1x63x63x256 .f32)
    (X : BufTy.Contents (Elt F) arg2.view.ty) (k : ℕ) (g : BufTy.Contents (Elt F) arg3.view.ty) : Prop :=
  ∀ y : S1x1x63x63x256.Idx, (y 2).val < k →
    arg3.view.read (Elt F) g y = Cert.Patch.blockWindows (arg2.view.read (Elt F) X) y

/-- The store of column `j` in trip `k`: its rectangle is the 256 entries `(0, 0, k, j, ·)`, and its payload is the
    block's function there. -/
def RowPiece (arg2 : Memref sig .tc .vmem S1x1x512x512 .f32) (X : BufTy.Contents (Elt F) arg2.view.ty) (k j : ℕ)
    (p : View.Piece (Elt F) S1x1x63x63x256 .f32) : Prop :=
  (∀ y : S1x1x63x63x256.Idx, y ∈ p.1.set ↔ ((y 2).val = k ∧ (y 3).val = j))
    ∧ ∀ x : p.1.shape.Idx, p.2 x = Cert.Patch.blockWindows (arg2.view.read (Elt F) X) (p.1.emb x)

/-- A list of stores that is, newest first, the stores of columns `n - 1, …, 1, 0` of row `k`. -/
inductive RowStores (arg2 : Memref sig .tc .vmem S1x1x512x512 .f32) (X : BufTy.Contents (Elt F) arg2.view.ty) (k : ℕ) :
    ℕ → List (View.Piece (Elt F) S1x1x63x63x256 .f32) → Prop
  | nil : RowStores arg2 X k 0 []
  | cons {n : ℕ} {p : View.Piece (Elt F) S1x1x63x63x256 .f32} {L : List (View.Piece (Elt F) S1x1x63x63x256 .f32)} :
      RowPiece (F := F) arg2 X k n p → RowStores arg2 X k n L → RowStores arg2 X k (n + 1) (p :: L)

/-- Every store in such a list is the store of some column below `n`, -/
theorem RowStores.mem {arg2 : Memref sig .tc .vmem S1x1x512x512 .f32} {X : BufTy.Contents (Elt F) arg2.view.ty} {k n : ℕ}
    {L : List (View.Piece (Elt F) S1x1x63x63x256 .f32)} (h : RowStores (F := F) arg2 X k n L) :
    ∀ p ∈ L, ∃ j, j < n ∧ RowPiece (F := F) arg2 X k j p := by
  induction h with
  | nil => intro p hp; exact absurd hp List.not_mem_nil
  | cons hp _ ih =>
    intro q hq
    rcases List.mem_cons.mp hq with rfl | hq
    · exact ⟨_, Nat.lt_succ_self _, hp⟩
    · obtain ⟨j, hj, hP⟩ := ih q hq
      exact ⟨j, Nat.lt_succ_of_lt hj, hP⟩

/-- and every column below `n` has its store in the list. -/
theorem RowStores.cover {arg2 : Memref sig .tc .vmem S1x1x512x512 .f32} {X : BufTy.Contents (Elt F) arg2.view.ty} {k n : ℕ}
    {L : List (View.Piece (Elt F) S1x1x63x63x256 .f32)} (h : RowStores (F := F) arg2 X k n L) :
    ∀ j, j < n → ∃ p ∈ L, RowPiece (F := F) arg2 X k j p := by
  induction h with
  | nil => intro j hj; exact absurd hj (Nat.not_lt_zero _)
  | @cons n p L hp _ ih =>
    intro j hj
    by_cases e : j = n
    · subst e; exact ⟨p, List.mem_cons_self, hp⟩
    · obtain ⟨q, hq, hP⟩ := ih j (by omega)
      exact ⟨q, List.mem_cons_of_mem _ hq, hP⟩

/-- The stores of the columns `0 … 62` of row `k`, written over contents whose rows before `k` are in place, leave the
    rows before `k + 1` in place: an entry of row `k` lies under the store of its column and reads the block's function
    there; an entry of an earlier row lies under no store of the trip. -/
theorem rowsDone_step (arg2 : Memref sig .tc .vmem S1x1x512x512 .f32) (arg3 : Memref sig .tc .vmem S1x1x63x63x256 .f32)
    (X : BufTy.Contents (Elt F) arg2.view.ty) (k : ℕ) (g : BufTy.Contents (Elt F) arg3.view.ty)
    (L : List (View.Piece (Elt F) S1x1x63x63x256 .f32))
    (hL : RowStores (F := F) arg2 X k 63 L)
    (hg : RowsDone (F := F) arg2 arg3 X k g) :
    RowsDone (F := F) arg2 arg3 X (k + 1) (arg3.view.writes (Elt F) g L) := by
  intro y hy
  by_cases h : (y 2).val = k
  · have h3 : (y 3).val < 63 := (y 3).isLt
    obtain ⟨p, hp, hP⟩ := hL.cover (y 3).val h3
    refine View.read_writes_apply_of_pieces arg3.view g _ L (fun q hq => ?_) y ⟨p, hp, (hP.1 y).mpr ⟨h, rfl⟩⟩
    obtain ⟨j, _, hQ⟩ := hL.mem q hq
    exact hQ.2
  · have hlt : (y 2).val < k := by omega
    rw [View.read_writes_apply_of_forall_not_mem arg3.view g y L (fun q hq hy' => by
      obtain ⟨j, _, hQ⟩ := hL.mem q hq
      exact h ((hQ.1 y).mp hy').1)]
    exact hg y hlt

/-- The rectangle at offsets `(0, 0, k, j, 0)` of sizes `(1, 1, 1, 1, 256)` lies inside the block. -/
theorem inb_closed (k : Fin k0_t1_loop.trips) (j : ℕ) (off : Fin 5 → ℕ) [co : ClosedOff off]
    (hform : co.form = ![0, 0, k.val, j, 0]) (hj : j < 63) :
    ∀ a, off a + S1x1x1x1x256.size a ≤ S1x1x63x63x256.size a := by
  have hk : k.val < 63 := Nat.lt_of_lt_of_le k.isLt k0_t1_abs.2.1
  rw [co.eq.trans hform]
  intro a
  match a with
  | ⟨0, _⟩ => show 0 + 1 ≤ 1; omega
  | ⟨1, _⟩ => show 0 + 1 ≤ 1; omega
  | ⟨2, _⟩ => show k.val + 1 ≤ 63; omega
  | ⟨3, _⟩ => show j + 1 ≤ 63; omega
  | ⟨4, _⟩ => show 0 + 256 ≤ 256; omega

/-- The store at column `j` of trip `k`: the rectangle at offsets `(0, 0, k, j, 0)` of sizes `(1, 1, 1, 1, 256)`, and
    as payload the slice at columns `8·j … 8·j + 15` of the band loaded at rows `8·k … 8·k + 15`, flattened. Entry
    `l` of the payload is the band's `(l / 16, 8·j + l % 16)`, the plane's `(8·k + l / 16, 8·j + l % 16)`. -/
theorem piece_ok (arg2 : Memref sig .tc .vmem S1x1x512x512 .f32) (X : BufTy.Contents (Elt F) arg2.view.ty)
    (k : Fin k0_t1_loop.trips) (j : ℕ) (off : Fin 5 → ℕ) [co : ClosedOff off] (c : ℕ)
    (hform : co.form = ![0, 0, k.val, j, 0]) (hc : c = 8 * j) (hj : j < 63)
    (hs : S16x512.Slices ![0, c] S16x16) :
    RowPiece (F := F) arg2 X k.val j
      (⟨Rect.unit (s := S1x1x63x63x256) off S1x1x1x1x256.size (inb_closed k j off hform hj),
        shapeCast S1x1x1x1x256 (shapeCast S256 (extractStridedSlice S16x16 ![0, c]
          (shapeCast S16x512 (View.readAt (Elt F) arg2.view
            (Rect.unit (s := S1x1x512x512) (k0_off1 k) S1x1x16x512.size (Gen.k0_off1_inb k)).toLoadRect X) (show S1x1x16x512.ShapeCasts S16x512 by decide)) hs)
          (by decide)) (by decide)⟩
        : View.Piece (Elt F) S1x1x63x63x256 .f32) := by
  have hoff : off = ![0, 0, k.val, j, 0] := co.eq.trans hform
  refine ⟨fun y => ?_, fun x => ?_⟩
  · show y ∈ (Rect.unit (s := S1x1x63x63x256) off S1x1x1x1x256.size (inb_closed k j off hform hj)).set ↔ ((y 2).val = k.val ∧ (y 3).val = j)
    have y0 : (y 0).val < 1 := (y 0).isLt
    have y1 : (y 1).val < 1 := (y 1).isLt
    have y4 : (y 4).val < 256 := (y 4).isLt
    rw [Rect.mem_set_unit]
    constructor
    · intro h
      have e2 : off 2 ≤ (y 2).val ∧ (y 2).val < off 2 + 1 := h 2
      have e3 : off 3 ≤ (y 3).val ∧ (y 3).val < off 3 + 1 := h 3
      have f2 : off 2 = k.val := by rw [hoff]; rfl
      have f3 : off 3 = j := by rw [hoff]; rfl
      omega
    · intro h a
      have f0 : off 0 = 0 := by rw [hoff]; rfl
      have f1 : off 1 = 0 := by rw [hoff]; rfl
      have f2 : off 2 = k.val := by rw [hoff]; rfl
      have f3 : off 3 = j := by rw [hoff]; rfl
      have f4 : off 4 = 0 := by rw [hoff]; rfl
      match a with
      | ⟨0, _⟩ => show off 0 ≤ (y 0).val ∧ (y 0).val < off 0 + 1; omega
      | ⟨1, _⟩ => show off 1 ≤ (y 1).val ∧ (y 1).val < off 1 + 1; omega
      | ⟨2, _⟩ => show off 2 ≤ (y 2).val ∧ (y 2).val < off 2 + 1; omega
      | ⟨3, _⟩ => show off 3 ≤ (y 3).val ∧ (y 3).val < off 3 + 1; omega
      | ⟨4, _⟩ => show off 4 ≤ (y 4).val ∧ (y 4).val < off 4 + 256; omega
  · show shapeCast S1x1x1x1x256 (shapeCast S256 (extractStridedSlice S16x16 ![0, c]
          (shapeCast S16x512 (View.readAt (Elt F) arg2.view
            (Rect.unit (s := S1x1x512x512) (k0_off1 k) S1x1x16x512.size (Gen.k0_off1_inb k)).toLoadRect X) (show S1x1x16x512.ShapeCasts S16x512 by decide)) hs)
          (by decide)) (by decide) x
        = Cert.Patch.blockWindows (arg2.view.read (Elt F) X)
            ((Rect.unit (s := S1x1x63x63x256) off S1x1x1x1x256.size (inb_closed k j off hform hj)).emb x)
    have x2 : (x 2).val < 1 := (x 2).isLt
    have x3 : (x 3).val < 1 := (x 3).isLt
    have x4 : (x 4).val < 256 := (x 4).isLt
    have hs' : c + 16 ≤ 512 := hs.2 1
    refine (Cert.Patch.flatSlice_apply _ c _ hs _ _ x hs').trans ?_
    rw [View.readAt_apply]
    unfold Cert.Patch.blockWindows
    refine congrArg (arg2.view.read (Elt F) X) (funext fun a => Fin.ext ?_)
    have o0 : k0_off1 k 0 = 0 := by rw [k0_off1_eq]; rfl
    have o1 : k0_off1 k 1 = 0 := by rw [k0_off1_eq]; rfl
    have o2 : k0_off1 k 2 = 8 * k.val := by rw [k0_off1_eq]; rfl
    have o3 : k0_off1 k 3 = 0 := by rw [k0_off1_eq]; rfl
    have f2 : off 2 = k.val := by rw [hoff]; rfl
    have f3 : off 3 = j := by rw [hoff]; rfl
    have f4 : off 4 = 0 := by rw [hoff]; rfl
    match a with
    | ⟨0, _⟩ => show k0_off1 k 0 + 1 * 0 = 0; omega
    | ⟨1, _⟩ => show k0_off1 k 1 + 1 * 0 = 0; omega
    | ⟨2, _⟩ =>
      show k0_off1 k 2 + 1 * ((x 4).val / 16) = 8 * (off 2 + 1 * (x 2).val) + (off 4 + 1 * (x 4).val) / 16
      omega
    | ⟨3, _⟩ =>
      show k0_off1 k 3 + 1 * (c + (x 4).val % 16) = 8 * (off 3 + 1 * (x 3).val) + (off 4 + 1 * (x 4).val) % 16
      omega

/-- The loop's invariant before trip `k`: the plane's staging buffer at its contents, the block's staging buffer at
    some contents whose rows before `k` are in place. -/
abbrev rowsInv (c : Dev nD) (arg2 : Memref sig .tc .vmem S1x1x512x512 .f32) (arg3 : Memref sig .tc .vmem S1x1x63x63x256 .f32)
    (X : BufTy.Contents (Elt F) arg2.view.ty) (k : ℕ) (_u : PUnit) : sProp 𝕄 :=
  iprop((arg2.view.loc (c : Thread nD τ) ↦[arg2.view.set]{fullShare} X)
    ∗ (∃ g, (arg3.view.loc (c : Thread nD τ) ↦[arg3.view.set]{fullShare} g) ∗ ⌜RowsDone (F := F) arg2 arg3 X k g⌝))

set_option maxHeartbeats 2000000 in
/-- One trip at a symbolic `k`: the executor runs the region's loads and stores; what it leaves in the block's
    buffer is the 63 stores of the trip written over the contents found, which are the stores of the columns
    `62, …, 0` of row `k`, newest first. -/
theorem rows_step (𝒱 : Variants) (c : Dev nD) (bd : Option 𝒱.V) (E : Set ℕ) (i : grid0.Coords)
    (arg2 : Memref sig .tc .vmem S1x1x512x512 .f32) (harg2 : arg2.IsWhole)
    (arg3 : Memref sig .tc .vmem S1x1x63x63x256 .f32) (harg3 : arg3.IsWhole)
    (X : BufTy.Contents (Elt F) arg2.view.ty) (k : Fin k0_t1_loop.trips) (u : PUnit) :
    rowsInv (F := F) c arg2 arg3 X k.val u
      ⊢ wp frame (wpE (defs₀ (F := F)) 𝒱 (c : Thread nD τ) bd) E (k0_t1_body (F := F) i arg2 harg2 arg3 harg3 k u)
          (rowsInv (F := F) c arg2 arg3 X (k.val + 1)) := by
  have hk : k.val < 63 := Nat.lt_of_lt_of_le k.isLt k0_t1_abs.2.1
  unfold k0_t1_body
  iintro ⟨HR_arg2, ⟨%g, HW_arg3, %hg⟩⟩
  sl_exec
  sl_step
  isplitl [HR_arg2]
  · iexact HR_arg2
  iexists _
  isplitl [HW_arg3]
  · iexact HW_arg3
  ipureintro
  sl_unfold_run_names
  refine rowsDone_step arg2 arg3 X k.val g _ ?_ hg
  repeat' (refine RowStores.cons ?_ ?_)
  all_goals first
    | exact RowStores.nil
    | exact piece_ok arg2 X k _ _ _ (by rfl) (by rfl) (by omega) (by decide)

end Cert.Kernel.Rows

end
-- ==== Proof.BodyBits.lean ====
/-
  The body at a grid point, and the run of the whole program. At point `(b, c)` the body is handed the staging buffer
  of the plane `x[b, c]` (a `[1, 1, 512, 512]` block) and the staging buffer of the result block (`[1, 1, 63, 63, 256]`, at
  any contents). Its loop fills the result block one row of windows per trip; after the 63 trips every entry holds the
  block's function of the plane (`Cert.Patch.blockWindows`), and the plane's buffer is as it was. That names what each
  point writes back; the launch theorem then runs the 32 points and the reshape that follows the region.
-/
import proofs.«144471_j63642825392255_2_alg».proof.Proof.RowsBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Rows

variable (m : (ℓ : Loc nD τ sig) → Buf (Elt F) ℓ) (ρ : Dev nD → PrngReg)

/-- The loop makes 63 trips. -/
theorem trips_eq : k0_t1_loop.trips = 63 := by decide

/-! ## The body's triple -/

set_option maxHeartbeats 1000000 in
/-- On whole staging memrefs — the plane's at contents `x0`, the block's at anything — the body runs to the
    continuation holding the plane's as it was and the block's at the block's function of `x0`: the loop by its
    invariant (rows before the trip in place), from no row to all 63. -/
theorem sound_kernel (c : Dev nD) (E : Set ℕ) (i : grid0.Coords) (arg2 : Memref sig .tc .vmem S1x1x512x512 .f32) (harg2 : arg2.IsWhole)
    (arg3 : Memref sig .tc .vmem S1x1x63x63x256 .f32) (harg3 : arg3.IsWhole)
    (x0 : Vec F S1x1x512x512 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (Cert.Patch.blockWindows x0)) -∗ K ⟨⟩))
      ⊢ wp frame (wpE (defs₀ (F := F)) Variants.none c none) E (cc0__patch_kernel i arg2 harg2 arg3 harg3) K := by
  simp only [cc0__patch_kernel_eq_skeleton]; unfold cc0__patch_kernel_skel
  unfold owns
  iintro ⟨⟨%f0, %hf0, H0⟩, ⟨%d1, %f1, -, H1⟩, Hk⟩
  subst hf0
  sl_for (rowsInv (F := F) c arg2 arg3 f0) $$ [H0 H1]
  · intro k acc
    exact rows_step (F := F) Variants.none c none E i arg2 harg2 arg3 harg3 f0 k acc
  · isplitl [H0]
    · iexact H0
    iexists f1
    isplitl [H1]
    · iexact H1
    ipureintro
    intro y hy
    exact absurd hy (Nat.not_lt_zero _)
  · iintro %acc ⟨H0, ⟨%g, H1, %hg⟩⟩
    sl_step
    iapply Hk
    isplitl [H0]
    · iexists f0
      isplitr
      · ipureintro; rfl
      iexact H0
    iexists g
    isplitr
    swap
    · iexact H1
    ipureintro
    funext y
    exact hg y (Nat.lt_of_lt_of_eq (y 2).isLt trips_eq.symm)

/-! ## The pipeline's proof data -/

/-- The proof data of the one pipeline on core `c`: the arrays as the region finds them; after the body at point
    `t` the plane's buffer at its block and the result's buffer at the block's function of that block; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Cert.Patch.blockWindows (iblk m c 0 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) :
    (dats m 0 c).after 1 t = Cert.Patch.blockWindows (iblk m c 0 t) := by dsimp only [dats]

/-- The plane's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the plane's memref holds its block, so the triple applies; the invariant and the core's
    debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of the program terminates, and every final state
    has each array of the pipeline at what the points wrote back, and every other unscoped buffer as the reshape after
    the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.RowsIdeal.lean ====
/-
  One trip of the body's loop writes one row of windows. The body's loop runs `i = 0 … 62`; trip `i` loads the band of
  rows `8·i … 8·i + 15` of the plane and stores, for `j = 0 … 62`, the 16 × 16 slice at columns `8·j … 8·j + 15` of
  the band, flattened to 256 entries, at `(0, 0, i, j, ·)` of the block (each store preceded by a load of the same
  256 entries, whose value is dropped). So the invariant is pointwise: before trip `k` every entry `(0, 0, i, j, l)`
  with `i < k` already holds the plane's element at row `8·i + l / 16`, column `8·j + l % 16`
  (`Cert.Patch.blockWindows`), whatever the rest of the buffer holds. One trip keeps the rows before `k` (its 63
  rectangles all lie in row `k`) and fills row `k` (the 63 rectangles are the columns `0 … 62` of row `k`, and each
  payload is the block's function on its rectangle); after the last trip every row is in place.
-/
import proofs.«144471_j63642825392255_2_alg».proof.Proof.Gen.KernelIdeal.Frame
import proofs.«144471_j63642825392255_2_alg».proof.Proof.Gen.KernelIdeal.Loops
import proofs.«144471_j63642825392255_2_alg».proof.Proof.PatchBlock
import Idealize.ShloMosaic.Lib.WritesUnit

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of windows `0 … k - 1` of the block are in place: entry `(0, 0, i, j, l)` with `i < k` is the plane's
    element at row `8·i + l / 16`, column `8·j + l % 16`. -/
def RowsDone (arg2 : Memref sig .tc .vmem S1x1x512x512 .f32) (arg3 : Memref sig .tc .vmem S1x1x63x63x256 .f32)
    (X : BufTy.Contents (Elt F) arg2.view.ty) (k : ℕ) (g : BufTy.Contents (Elt F) arg3.view.ty) : Prop :=
  ∀ y : S1x1x63x63x256.Idx, (y 2).val < k →
    arg3.view.read (Elt F) g y = Cert.Patch.blockWindows (arg2.view.read (Elt F) X) y

/-- The store of column `j` in trip `k`: its rectangle is the 256 entries `(0, 0, k, j, ·)`, and its payload is the
    block's function there. -/
def RowPiece (arg2 : Memref sig .tc .vmem S1x1x512x512 .f32) (X : BufTy.Contents (Elt F) arg2.view.ty) (k j : ℕ)
    (p : View.Piece (Elt F) S1x1x63x63x256 .f32) : Prop :=
  (∀ y : S1x1x63x63x256.Idx, y ∈ p.1.set ↔ ((y 2).val = k ∧ (y 3).val = j))
    ∧ ∀ x : p.1.shape.Idx, p.2 x = Cert.Patch.blockWindows (arg2.view.read (Elt F) X) (p.1.emb x)

/-- A list of stores that is, newest first, the stores of columns `n - 1, …, 1, 0` of row `k`. -/
inductive RowStores (arg2 : Memref sig .tc .vmem S1x1x512x512 .f32) (X : BufTy.Contents (Elt F) arg2.view.ty) (k : ℕ) :
    ℕ → List (View.Piece (Elt F) S1x1x63x63x256 .f32) → Prop
  | nil : RowStores arg2 X k 0 []
  | cons {n : ℕ} {p : View.Piece (Elt F) S1x1x63x63x256 .f32} {L : List (View.Piece (Elt F) S1x1x63x63x256 .f32)} :
      RowPiece (F := F) arg2 X k n p → RowStores arg2 X k n L → RowStores arg2 X k (n + 1) (p :: L)

/-- Every store in such a list is the store of some column below `n`, -/
theorem RowStores.mem {arg2 : Memref sig .tc .vmem S1x1x512x512 .f32} {X : BufTy.Contents (Elt F) arg2.view.ty} {k n : ℕ}
    {L : List (View.Piece (Elt F) S1x1x63x63x256 .f32)} (h : RowStores (F := F) arg2 X k n L) :
    ∀ p ∈ L, ∃ j, j < n ∧ RowPiece (F := F) arg2 X k j p := by
  induction h with
  | nil => intro p hp; exact absurd hp List.not_mem_nil
  | cons hp _ ih =>
    intro q hq
    rcases List.mem_cons.mp hq with rfl | hq
    · exact ⟨_, Nat.lt_succ_self _, hp⟩
    · obtain ⟨j, hj, hP⟩ := ih q hq
      exact ⟨j, Nat.lt_succ_of_lt hj, hP⟩

/-- and every column below `n` has its store in the list. -/
theorem RowStores.cover {arg2 : Memref sig .tc .vmem S1x1x512x512 .f32} {X : BufTy.Contents (Elt F) arg2.view.ty} {k n : ℕ}
    {L : List (View.Piece (Elt F) S1x1x63x63x256 .f32)} (h : RowStores (F := F) arg2 X k n L) :
    ∀ j, j < n → ∃ p ∈ L, RowPiece (F := F) arg2 X k j p := by
  induction h with
  | nil => intro j hj; exact absurd hj (Nat.not_lt_zero _)
  | @cons n p L hp _ ih =>
    intro j hj
    by_cases e : j = n
    · subst e; exact ⟨p, List.mem_cons_self, hp⟩
    · obtain ⟨q, hq, hP⟩ := ih j (by omega)
      exact ⟨q, List.mem_cons_of_mem _ hq, hP⟩

/-- The stores of the columns `0 … 62` of row `k`, written over contents whose rows before `k` are in place, leave the
    rows before `k + 1` in place: an entry of row `k` lies under the store of its column and reads the block's function
    there; an entry of an earlier row lies under no store of the trip. -/
theorem rowsDone_step (arg2 : Memref sig .tc .vmem S1x1x512x512 .f32) (arg3 : Memref sig .tc .vmem S1x1x63x63x256 .f32)
    (X : BufTy.Contents (Elt F) arg2.view.ty) (k : ℕ) (g : BufTy.Contents (Elt F) arg3.view.ty)
    (L : List (View.Piece (Elt F) S1x1x63x63x256 .f32))
    (hL : RowStores (F := F) arg2 X k 63 L)
    (hg : RowsDone (F := F) arg2 arg3 X k g) :
    RowsDone (F := F) arg2 arg3 X (k + 1) (arg3.view.writes (Elt F) g L) := by
  intro y hy
  by_cases h : (y 2).val = k
  · have h3 : (y 3).val < 63 := (y 3).isLt
    obtain ⟨p, hp, hP⟩ := hL.cover (y 3).val h3
    refine View.read_writes_apply_of_pieces arg3.view g _ L (fun q hq => ?_) y ⟨p, hp, (hP.1 y).mpr ⟨h, rfl⟩⟩
    obtain ⟨j, _, hQ⟩ := hL.mem q hq
    exact hQ.2
  · have hlt : (y 2).val < k := by omega
    rw [View.read_writes_apply_of_forall_not_mem arg3.view g y L (fun q hq hy' => by
      obtain ⟨j, _, hQ⟩ := hL.mem q hq
      exact h ((hQ.1 y).mp hy').1)]
    exact hg y hlt

/-- The rectangle at offsets `(0, 0, k, j, 0)` of sizes `(1, 1, 1, 1, 256)` lies inside the block. -/
theorem inb_closed (k : Fin k0_t1_loop.trips) (j : ℕ) (off : Fin 5 → ℕ) [co : ClosedOff off]
    (hform : co.form = ![0, 0, k.val, j, 0]) (hj : j < 63) :
    ∀ a, off a + S1x1x1x1x256.size a ≤ S1x1x63x63x256.size a := by
  have hk : k.val < 63 := Nat.lt_of_lt_of_le k.isLt k0_t1_abs.2.1
  rw [co.eq.trans hform]
  intro a
  match a with
  | ⟨0, _⟩ => show 0 + 1 ≤ 1; omega
  | ⟨1, _⟩ => show 0 + 1 ≤ 1; omega
  | ⟨2, _⟩ => show k.val + 1 ≤ 63; omega
  | ⟨3, _⟩ => show j + 1 ≤ 63; omega
  | ⟨4, _⟩ => show 0 + 256 ≤ 256; omega

/-- The store at column `j` of trip `k`: the rectangle at offsets `(0, 0, k, j, 0)` of sizes `(1, 1, 1, 1, 256)`, and
    as payload the slice at columns `8·j … 8·j + 15` of the band loaded at rows `8·k … 8·k + 15`, flattened. Entry
    `l` of the payload is the band's `(l / 16, 8·j + l % 16)`, the plane's `(8·k + l / 16, 8·j + l % 16)`. -/
theorem piece_ok (arg2 : Memref sig .tc .vmem S1x1x512x512 .f32) (X : BufTy.Contents (Elt F) arg2.view.ty)
    (k : Fin k0_t1_loop.trips) (j : ℕ) (off : Fin 5 → ℕ) [co : ClosedOff off] (c : ℕ)
    (hform : co.form = ![0, 0, k.val, j, 0]) (hc : c = 8 * j) (hj : j < 63)
    (hs : S16x512.Slices ![0, c] S16x16) :
    RowPiece (F := F) arg2 X k.val j
      (⟨Rect.unit (s := S1x1x63x63x256) off S1x1x1x1x256.size (inb_closed k j off hform hj),
        shapeCast S1x1x1x1x256 (shapeCast S256 (extractStridedSlice S16x16 ![0, c]
          (shapeCast S16x512 (View.readAt (Elt F) arg2.view
            (Rect.unit (s := S1x1x512x512) (k0_off1 k) S1x1x16x512.size (Gen.k0_off1_inb k)).toLoadRect X) (show S1x1x16x512.ShapeCasts S16x512 by decide)) hs)
          (by decide)) (by decide)⟩
        : View.Piece (Elt F) S1x1x63x63x256 .f32) := by
  have hoff : off = ![0, 0, k.val, j, 0] := co.eq.trans hform
  refine ⟨fun y => ?_, fun x => ?_⟩
  · show y ∈ (Rect.unit (s := S1x1x63x63x256) off S1x1x1x1x256.size (inb_closed k j off hform hj)).set ↔ ((y 2).val = k.val ∧ (y 3).val = j)
    have y0 : (y 0).val < 1 := (y 0).isLt
    have y1 : (y 1).val < 1 := (y 1).isLt
    have y4 : (y 4).val < 256 := (y 4).isLt
    rw [Rect.mem_set_unit]
    constructor
    · intro h
      have e2 : off 2 ≤ (y 2).val ∧ (y 2).val < off 2 + 1 := h 2
      have e3 : off 3 ≤ (y 3).val ∧ (y 3).val < off 3 + 1 := h 3
      have f2 : off 2 = k.val := by rw [hoff]; rfl
      have f3 : off 3 = j := by rw [hoff]; rfl
      omega
    · intro h a
      have f0 : off 0 = 0 := by rw [hoff]; rfl
      have f1 : off 1 = 0 := by rw [hoff]; rfl
      have f2 : off 2 = k.val := by rw [hoff]; rfl
      have f3 : off 3 = j := by rw [hoff]; rfl
      have f4 : off 4 = 0 := by rw [hoff]; rfl
      match a with
      | ⟨0, _⟩ => show off 0 ≤ (y 0).val ∧ (y 0).val < off 0 + 1; omega
      | ⟨1, _⟩ => show off 1 ≤ (y 1).val ∧ (y 1).val < off 1 + 1; omega
      | ⟨2, _⟩ => show off 2 ≤ (y 2).val ∧ (y 2).val < off 2 + 1; omega
      | ⟨3, _⟩ => show off 3 ≤ (y 3).val ∧ (y 3).val < off 3 + 1; omega
      | ⟨4, _⟩ => show off 4 ≤ (y 4).val ∧ (y 4).val < off 4 + 256; omega
  · show shapeCast S1x1x1x1x256 (shapeCast S256 (extractStridedSlice S16x16 ![0, c]
          (shapeCast S16x512 (View.readAt (Elt F) arg2.view
            (Rect.unit (s := S1x1x512x512) (k0_off1 k) S1x1x16x512.size (Gen.k0_off1_inb k)).toLoadRect X) (show S1x1x16x512.ShapeCasts S16x512 by decide)) hs)
          (by decide)) (by decide) x
        = Cert.Patch.blockWindows (arg2.view.read (Elt F) X)
            ((Rect.unit (s := S1x1x63x63x256) off S1x1x1x1x256.size (inb_closed k j off hform hj)).emb x)
    have x2 : (x 2).val < 1 := (x 2).isLt
    have x3 : (x 3).val < 1 := (x 3).isLt
    have x4 : (x 4).val < 256 := (x 4).isLt
    have hs' : c + 16 ≤ 512 := hs.2 1
    refine (Cert.Patch.flatSlice_apply _ c _ hs _ _ x hs').trans ?_
    rw [View.readAt_apply]
    unfold Cert.Patch.blockWindows
    refine congrArg (arg2.view.read (Elt F) X) (funext fun a => Fin.ext ?_)
    have o0 : k0_off1 k 0 = 0 := by rw [k0_off1_eq]; rfl
    have o1 : k0_off1 k 1 = 0 := by rw [k0_off1_eq]; rfl
    have o2 : k0_off1 k 2 = 8 * k.val := by rw [k0_off1_eq]; rfl
    have o3 : k0_off1 k 3 = 0 := by rw [k0_off1_eq]; rfl
    have f2 : off 2 = k.val := by rw [hoff]; rfl
    have f3 : off 3 = j := by rw [hoff]; rfl
    have f4 : off 4 = 0 := by rw [hoff]; rfl
    match a with
    | ⟨0, _⟩ => show k0_off1 k 0 + 1 * 0 = 0; omega
    | ⟨1, _⟩ => show k0_off1 k 1 + 1 * 0 = 0; omega
    | ⟨2, _⟩ =>
      show k0_off1 k 2 + 1 * ((x 4).val / 16) = 8 * (off 2 + 1 * (x 2).val) + (off 4 + 1 * (x 4).val) / 16
      omega
    | ⟨3, _⟩ =>
      show k0_off1 k 3 + 1 * (c + (x 4).val % 16) = 8 * (off 3 + 1 * (x 3).val) + (off 4 + 1 * (x 4).val) % 16
      omega

/-- The loop's invariant before trip `k`: the plane's staging buffer at its contents, the block's staging buffer at
    some contents whose rows before `k` are in place. -/
abbrev rowsInv (c : Dev nD) (arg2 : Memref sig .tc .vmem S1x1x512x512 .f32) (arg3 : Memref sig .tc .vmem S1x1x63x63x256 .f32)
    (X : BufTy.Contents (Elt F) arg2.view.ty) (k : ℕ) (_u : PUnit) : sProp 𝕄 :=
  iprop((arg2.view.loc (c : Thread nD τ) ↦[arg2.view.set]{fullShare} X)
    ∗ (∃ g, (arg3.view.loc (c : Thread nD τ) ↦[arg3.view.set]{fullShare} g) ∗ ⌜RowsDone (F := F) arg2 arg3 X k g⌝))

set_option maxHeartbeats 2000000 in
/-- One trip at a symbolic `k`: the executor runs the region's loads and stores; what it leaves in the block's
    buffer is the 63 stores of the trip written over the contents found, which are the stores of the columns
    `62, …, 0` of row `k`, newest first. -/
theorem rows_step (𝒱 : Variants) (c : Dev nD) (bd : Option 𝒱.V) (E : Set ℕ) (i : grid0.Coords)
    (arg2 : Memref sig .tc .vmem S1x1x512x512 .f32) (harg2 : arg2.IsWhole)
    (arg3 : Memref sig .tc .vmem S1x1x63x63x256 .f32) (harg3 : arg3.IsWhole)
    (X : BufTy.Contents (Elt F) arg2.view.ty) (k : Fin k0_t1_loop.trips) (u : PUnit) :
    rowsInv (F := F) c arg2 arg3 X k.val u
      ⊢ wp frame (wpE (defs₀ (F := F)) 𝒱 (c : Thread nD τ) bd) E (k0_t1_body (F := F) i arg2 harg2 arg3 harg3 k u)
          (rowsInv (F := F) c arg2 arg3 X (k.val + 1)) := by
  have hk : k.val < 63 := Nat.lt_of_lt_of_le k.isLt k0_t1_abs.2.1
  unfold k0_t1_body
  iintro ⟨HR_arg2, ⟨%g, HW_arg3, %hg⟩⟩
  sl_exec
  sl_step
  isplitl [HR_arg2]
  · iexact HR_arg2
  iexists _
  isplitl [HW_arg3]
  · iexact HW_arg3
  ipureintro
  sl_unfold_run_names
  refine rowsDone_step arg2 arg3 X k.val g _ ?_ hg
  repeat' (refine RowStores.cons ?_ ?_)
  all_goals first
    | exact RowStores.nil
    | exact piece_ok arg2 X k _ _ _ (by rfl) (by rfl) (by omega) (by decide)

end Cert.KernelIdeal.Rows

end
-- ==== Proof.BodyIdeal.lean ====
/-
  The body at a grid point, and the run of the whole program. At point `(b, c)` the body is handed the staging buffer
  of the plane `x[b, c]` (a `[1, 1, 512, 512]` block) and the staging buffer of the result block (`[1, 1, 63, 63, 256]`, at
  any contents). Its loop fills the result block one row of windows per trip; after the 63 trips every entry holds the
  block's function of the plane (`Cert.Patch.blockWindows`), and the plane's buffer is as it was. That names what each
  point writes back; the launch theorem then runs the 32 points and the reshape that follows the region.
-/
import proofs.«144471_j63642825392255_2_alg».proof.Proof.RowsIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Rows

variable (m : (ℓ : Loc nD τ sig) → Buf (Elt F) ℓ) (ρ : Dev nD → PrngReg)

/-- The loop makes 63 trips. -/
theorem trips_eq : k0_t1_loop.trips = 63 := by decide

/-! ## The body's triple -/

set_option maxHeartbeats 1000000 in
/-- On whole staging memrefs — the plane's at contents `x0`, the block's at anything — the body runs to the
    continuation holding the plane's as it was and the block's at the block's function of `x0`: the loop by its
    invariant (rows before the trip in place), from no row to all 63. -/
theorem sound_kernel (c : Dev nD) (E : Set ℕ) (i : grid0.Coords) (arg2 : Memref sig .tc .vmem S1x1x512x512 .f32) (harg2 : arg2.IsWhole)
    (arg3 : Memref sig .tc .vmem S1x1x63x63x256 .f32) (harg3 : arg3.IsWhole)
    (x0 : Vec F S1x1x512x512 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (Cert.Patch.blockWindows x0)) -∗ K ⟨⟩))
      ⊢ wp frame (wpE (defs₀ (F := F)) Variants.none c none) E (cc0__patch_kernel i arg2 harg2 arg3 harg3) K := by
  simp only [cc0__patch_kernel_eq_skeleton]; unfold cc0__patch_kernel_skel
  unfold owns
  iintro ⟨⟨%f0, %hf0, H0⟩, ⟨%d1, %f1, -, H1⟩, Hk⟩
  subst hf0
  sl_for (rowsInv (F := F) c arg2 arg3 f0) $$ [H0 H1]
  · intro k acc
    exact rows_step (F := F) Variants.none c none E i arg2 harg2 arg3 harg3 f0 k acc
  · isplitl [H0]
    · iexact H0
    iexists f1
    isplitl [H1]
    · iexact H1
    ipureintro
    intro y hy
    exact absurd hy (Nat.not_lt_zero _)
  · iintro %acc ⟨H0, ⟨%g, H1, %hg⟩⟩
    sl_step
    iapply Hk
    isplitl [H0]
    · iexists f0
      isplitr
      · ipureintro; rfl
      iexact H0
    iexists g
    isplitr
    swap
    · iexact H1
    ipureintro
    funext y
    exact hg y (Nat.lt_of_lt_of_eq (y 2).isLt trips_eq.symm)

/-! ## The pipeline's proof data -/

/-- The proof data of the one pipeline on core `c`: the arrays as the region finds them; after the body at point
    `t` the plane's buffer at its block and the result's buffer at the block's function of that block; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Cert.Patch.blockWindows (iblk m c 0 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) :
    (dats m 0 c).after 1 t = Cert.Patch.blockWindows (iblk m c 0 t) := by dsimp only [dats]

/-- The plane's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the plane's memref holds its block, so the triple applies; the invariant and the core's
    debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of the program terminates, and every final state
    has each array of the pipeline at what the points wrote back, and every other unscoped buffer as the reshape after
    the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.PatchSpec.lean ====
/-
  The function both programs compute. Each 512 × 512 plane of the input is cut into its 63 × 63 overlapping
  16 × 16 windows, taken at row and column strides of 8: window `(i, j)` holds rows `8·i … 8·i + 15` and columns
  `8·j … 8·j + 15`. The result lists the windows of a plane in row-major order, `n = 63·i + j`, so result element
  `(b, c, n, p, q)` is input element `(b, c, 8·(n / 63) + p, 8·(n % 63) + q)`. Nothing is computed: the result is a
  re-indexing of the input, so it is the same function over any type of values.
-/
import Idealize.ShloMosaic.Lib.ValueIdx

namespace Cert.Patch

open Idealize.ShloMosaic Idealize.ShloMosaic.ValueIdx

/-- The shape of the input, `[4, 8, 512, 512]`, and of the result, `[4, 8, 3969, 16, 16]`. -/
abbrev SIn : Shape := ⟨4, ![4, 8, 512, 512]⟩
abbrev SOut : Shape := ⟨5, ![4, 8, 3969, 16, 16]⟩

/-- A window's row inside the plane stays inside it: `8·i + p ≤ 8·62 + 15 = 511`. -/
theorem row_lt {n p : Nat} (hn : n < 3969) (hp : p < 16) : 8 * (n / 63) + p < 512 := by omega

/-- A window's column inside the plane stays inside it: `8·j + q ≤ 8·62 + 15 = 511`. -/
theorem col_lt {n q : Nat} (hq : q < 16) : 8 * (n % 63) + q < 512 := by omega

/-- The input element that result element `(b, c, n, p, q)` copies: `(b, c, 8·(n / 63) + p, 8·(n % 63) + q)`. -/
def src (y : SOut.Idx) : SIn.Idx :=
  ix4 (⟨(y 0).val, (y 0).isLt⟩ : Fin 4) (⟨(y 1).val, (y 1).isLt⟩ : Fin 8)
    (⟨8 * ((y 2).val / 63) + (y 3).val, row_lt (y 2).isLt (y 3).isLt⟩ : Fin 512)
    (⟨8 * ((y 2).val % 63) + (y 4).val, col_lt (y 4).isLt⟩ : Fin 512)

/-- The windows of `x`, as one function of the whole input array. -/
def windows {α : Type} (x : SIn.Idx → α) : SOut.Idx → α := fun y => x (src y)

theorem windows_apply {α : Type} (x : SIn.Idx → α) (y : SOut.Idx) : windows x y = x (src y) := rfl

@[simp] theorem src_val0 (y : SOut.Idx) : (src y 0).val = (y 0).val := rfl
@[simp] theorem src_val1 (y : SOut.Idx) : (src y 1).val = (y 1).val := rfl
@[simp] theorem src_val2 (y : SOut.Idx) : (src y 2).val = 8 * ((y 2).val / 63) + (y 3).val := rfl
@[simp] theorem src_val3 (y : SOut.Idx) : (src y 3).val = 8 * ((y 2).val % 63) + (y 4).val := rfl

end Cert.Patch
-- ==== Proof.PatchArray.lean ====
/-
  The kernel's result before its final reshape. The region writes an array of shape `[4, 8, 63, 63, 256]`: entry
  `(b, c, i, j, l)` is window `(i, j)` of plane `(b, c)` at its flattened position `l = 16·p + q`, the input's element
  `(b, c, 8·i + l / 16, 8·j + l % 16)`. The reshape to `[4, 8, 3969, 16, 16]` that follows merges `(i, j)` into
  `n = 63·i + j` and splits `l` into `(p, q)`; both keep the row-major position, so the reshaped array is the array of
  windows of the specification.
-/
import proofs.«144471_j63642825392255_2_alg».proof.Proof.PatchSpec
import proofs.«144471_j63642825392255_2_alg».proof.Proof.PatchBlock

namespace Cert.Patch

open Idealize.ShloMosaic Idealize.ShloMosaic.ValueIdx

/-- The shape the region writes. -/
abbrev SPacked : Shape := ⟨5, ![4, 8, 63, 63, 256]⟩

/-- The input element that entry `(b, c, i, j, l)` of the region's result copies. -/
def packedSrc (z : SPacked.Idx) : SIn.Idx :=
  ix4 (⟨(z 0).val, (z 0).isLt⟩ : Fin 4) (⟨(z 1).val, (z 1).isLt⟩ : Fin 8)
    (⟨8 * (z 2).val + (z 4).val / 16, blockRow_lt (z 2).isLt (z 4).isLt⟩ : Fin 512)
    (⟨8 * (z 3).val + (z 4).val % 16, blockCol_lt (z 3).isLt⟩ : Fin 512)

/-- The region's result, as one function of the whole input array. -/
def packed {α : Type} (x : SIn.Idx → α) : SPacked.Idx → α := fun z => x (packedSrc z)

/-- The reshape of the region's result is the array of windows: `(b, c, n, p, q)` sits at the row-major position of
    `(b, c, n / 63, n % 63, 16·p + q)`, and that entry copies `(b, c, 8·(n / 63) + p, 8·(n % 63) + q)`. -/
theorem reshape_packed {α : Type} (x : SIn.Idx → α) (h : SPacked.ShapeCasts SOut) :
    shapeCast SOut (packed x) h = windows x := by
  funext y
  have y0 : (y 0).val < 4 := (y 0).isLt
  have y1 : (y 1).val < 8 := (y 1).isLt
  have y2 : (y 2).val < 3969 := (y 2).isLt
  have y3 : (y 3).val < 16 := (y 3).isLt
  have y4 : (y 4).val < 16 := (y 4).isLt
  refine (shapeCast_apply _ h y (ix5 (⟨(y 0).val, y0⟩ : Fin 4) (⟨(y 1).val, y1⟩ : Fin 8) (⟨(y 2).val / 63, by omega⟩ : Fin 63)
    (⟨(y 2).val % 63, Nat.mod_lt _ (by omega)⟩ : Fin 63) (⟨16 * (y 3).val + (y 4).val, by omega⟩ : Fin 256)) ?_).trans ?_
  · rw [Shape.rowMajor_val_five, Shape.rowMajor_val_five]
    show ((((y 0).val * 8 + (y 1).val) * 63 + (y 2).val / 63) * 63 + (y 2).val % 63) * 256 + (16 * (y 3).val + (y 4).val)
      = ((((y 0).val * 8 + (y 1).val) * 3969 + (y 2).val) * 16 + (y 3).val) * 16 + (y 4).val
    omega
  · unfold packed windows
    refine congrArg x (funext fun a => Fin.ext ?_)
    match a with
    | ⟨0, _⟩ => rfl
    | ⟨1, _⟩ => rfl
    | ⟨2, _⟩ =>
      show 8 * ((y 2).val / 63) + (16 * (y 3).val + (y 4).val) / 16 = 8 * ((y 2).val / 63) + (y 3).val
      omega
    | ⟨3, _⟩ =>
      show 8 * ((y 2).val % 63) + (16 * (y 3).val + (y 4).val) % 16 = 8 * ((y 2).val % 63) + (y 4).val
      omega

end Cert.Patch
-- ==== Proof.OutValue.lean ====
/-
  The array the idealized kernel returns. Point `(b, c)` of the 4 × 8 grid reads the block `(b, c, ·, ·)` of the
  input — its plane — and writes back the block `(b, c, ·, ·, ·)` of the region's `[4, 8, 63, 63, 256]` result, filled
  with the block's function of the plane; that is the block of one whole-array function (`Cert.Patch.packed` of the
  input), because a block's coordinate in the array is the block index times the block size plus the coordinate inside
  the block, and here the two block indices are `(b, c, 0, 0)` and `(b, c, 0, 0, 0)`. The 32 blocks tile the array, so the
  region's result is `packed x`; the reshape after the region turns it into the array of windows.
-/
import proofs.«144471_j63642825392255_2_alg».proof.Proof.BodyIdeal
import proofs.«144471_j63642825392255_2_alg».proof.Proof.PatchArray
import Idealize.ShloMosaic.Lib.Pipeline.Value
import Idealize.ShloMosaic.Lib.StableHlo.Run

set_option maxRecDepth 16384

noncomputable section

namespace Cert.KernelIdeal.OutValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Body Idealize.ShloMosaic.StableHlo

variable (m : (ℓ : Loc nD τ sig) → Buf (Elt F) ℓ) (ρ : Dev nD → PrngReg)

/-- The printed index maps over the grid: the plane's block and the result's block share their two leading block
    indices, which stay in range, and every other block index is zero. -/
theorem idx_facts : ∀ t : Fin cfg0.N, win0_0.index t (0 : Fin 4) = win0_1.index t (0 : Fin 5)
    ∧ win0_0.index t (1 : Fin 4) = win0_1.index t (1 : Fin 5)
    ∧ win0_0.index t (2 : Fin 4) = 0 ∧ win0_0.index t (3 : Fin 4) = 0
    ∧ win0_1.index t (2 : Fin 5) = 0 ∧ win0_1.index t (3 : Fin 5) = 0 ∧ win0_1.index t (4 : Fin 5) = 0
    ∧ win0_1.index t (0 : Fin 5) ≤ 3 ∧ win0_1.index t (1 : Fin 5) ≤ 7 :=
  (by decide +kernel : ∀ t : Fin grid0.N, _)

/-- Every pair `(b, c)` is some point's. -/
theorem idx_onto : ∀ (q0 : Fin 4) (q1 : Fin 8), ∃ t : Fin cfg0.N, win0_1.index t = ![q0.val, q1.val, 0, 0, 0] :=
  (by decide +kernel : ∀ (q0 : Fin 4) (q1 : Fin 8), ∃ t : Fin grid0.N, win0_1.index t = ![q0.val, q1.val, 0, 0, 0])

/-- What point `t` writes back is block `t` of the packed array of the input as the region finds it. -/
theorem flushed_eq (c : Dev nD) (t : Fin cfg0.N) :
    (dats m 0 c).flushed 1 t = ((cfg0.win 1).blk t).view.read (Elt F) (Cert.Patch.packed (V m c main_arg0)) := by
  show (cfg0.win 1).cut (grid0.coords t) ((dats m 0 c).after 1 t) = _
  rw [after0_1]
  obtain ⟨e0, e1, e2, e3, e4, e5, e6, e7, e8⟩ := idx_facts t
  funext j
  have j0 : (j 0).val < 1 := (j 0).isLt
  have j1 : (j 1).val < 1 := (j 1).isLt
  have j2 : (j 2).val < 63 := (j 2).isLt
  have j3 : (j 3).val < 63 := (j 3).isLt
  have j4 : (j 4).val < 256 := (j 4).isLt
  show V m c main_arg0 (((cfg0.win 0).blk t).view.emb (Cert.Patch.blockSrc j))
    = V m c main_arg0 (Cert.Patch.packedSrc (((cfg0.win 1).blk t).view.emb j))
  refine congrArg (V m c main_arg0) (funext fun a => Fin.ext ?_)
  match a with
  | ⟨0, _⟩ =>
    show win0_0.index t (0 : Fin 4) * 1 + 1 * 0 = win0_1.index t (0 : Fin 5) * 1 + 1 * (j 0).val
    omega
  | ⟨1, _⟩ =>
    show win0_0.index t (1 : Fin 4) * 1 + 1 * 0 = win0_1.index t (1 : Fin 5) * 1 + 1 * (j 1).val
    omega
  | ⟨2, _⟩ =>
    show win0_0.index t (2 : Fin 4) * 512 + 1 * (8 * (j 2).val + (j 4).val / 16)
      = 8 * (win0_1.index t (2 : Fin 5) * 63 + 1 * (j 2).val) + (win0_1.index t (4 : Fin 5) * 256 + 1 * (j 4).val) / 16
    omega
  | ⟨3, _⟩ =>
    show win0_0.index t (3 : Fin 4) * 512 + 1 * (8 * (j 3).val + (j 4).val % 16)
      = 8 * (win0_1.index t (3 : Fin 5) * 63 + 1 * (j 3).val) + (win0_1.index t (4 : Fin 5) * 256 + 1 * (j 4).val) % 16
    omega

/-- An index of the array is in point `t`'s block iff each coordinate is in the block's range on its axis. -/
theorem mem_blk (t : Fin cfg0.N) (i : S4x8x63x63x256.Idx) :
    i ∈ ((cfg0.win 1).blk t).view.set ↔ ∀ a : Fin 5, win0_1.index t a * S1x1x63x63x256.size a ≤ (i a).val
      ∧ (i a).val < win0_1.index t a * S1x1x63x63x256.size a + S1x1x63x63x256.size a := by
  show i ∈ ((View.whole main_v0).slice (win0_1.rect t)).set ↔ _
  rw [View.set_slice_whole, Rect.mem_set_unit]
  exact Iff.rfl

/-- The blocks tile the array: index `(b, c, i, j, l)` lies in the block of the point with block indices `(b, c)`. -/
theorem cover (i : S4x8x63x63x256.Idx) :
    ∃ t : Fin cfg0.N, (cfg0.win 1).flush t = true ∧ i ∈ ((cfg0.win 1).blk t).view.set := by
  have hi0 : (i 0).val < 4 := (i 0).isLt
  have hi1 : (i 1).val < 8 := (i 1).isLt
  have hi2 : (i 2).val < 63 := (i 2).isLt
  have hi3 : (i 3).val < 63 := (i 3).isLt
  have hi4 : (i 4).val < 256 := (i 4).isLt
  obtain ⟨t, ht⟩ := idx_onto ⟨(i 0).val, hi0⟩ ⟨(i 1).val, hi1⟩
  have q0 : win0_1.index t (0 : Fin 5) = (i 0).val := congrFun ht 0
  have q1 : win0_1.index t (1 : Fin 5) = (i 1).val := congrFun ht 1
  have q2 : win0_1.index t (2 : Fin 5) = 0 := congrFun ht 2
  have q3 : win0_1.index t (3 : Fin 5) = 0 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 1 ≤ (i 1).val ∧ (i 1).val < win0_1.index t (1 : Fin 5) * 1 + 1; omega
  | ⟨2, _⟩ => show win0_1.index t (2 : Fin 5) * 63 ≤ (i 2).val ∧ (i 2).val < win0_1.index t (2 : Fin 5) * 63 + 63; omega
  | ⟨3, _⟩ => show win0_1.index t (3 : Fin 5) * 63 ≤ (i 3).val ∧ (i 3).val < win0_1.index t (3 : Fin 5) * 63 + 63; omega
  | ⟨4, _⟩ => show win0_1.index t (4 : Fin 5) * 256 ≤ (i 4).val ∧ (i 4).val < win0_1.index t (4 : Fin 5) * 256 + 256; omega

/-- The region's result array after the run: the packed array of the input. -/
theorem final (c : Dev nD) :
    (dats m 0 c).arrAt 1 cfg0.N = Cert.Patch.packed (m ((c : Thread nD τ).loc main_arg0)) :=
  (dats m 0 c).arrAt_eq_of_cover 1 (Cert.Patch.packed (V m c main_arg0)) (fun t _ => flushed_eq m c t) cover

/-- The program's result: the reshape after the region, applied to the region's result, is the array of windows. -/
theorem result (c : Dev nD) :
    Pipeline.afterTail₀ cfgs (dats m) 0 (V0 m) [hostOps1] c main_v1
      = Cert.Patch.windows (m ((c : Thread nD τ).loc main_arg0)) := by
  unfold Pipeline.afterTail₀
  show StableHlo.after hostOps1 _ (Proc.devRef .tc main_v1) = _
  after_results
  have e : Pipeline.withArrays spec0 c (V0 m c) (fun w => (dats m 0 c).arrAt w cfg0.N) (Proc.devRef .tc main_v0)
      = Cert.Patch.packed (m ((c : Thread nD τ).loc main_arg0)) :=
    (Pipeline.withArrays_arr spec0 launch0.win.arr_inj c (V0 m c) (fun w => (dats m 0 c).arrAt w cfg0.N) 1).trans (final m c)
  show shapeCast S4x8x3969x16x16
      (Pipeline.withArrays spec0 c (V0 m c) (fun w => (dats m 0 c).arrAt w cfg0.N) (Proc.devRef .tc main_v0))
      shapeCasts_S4x8x63x63x256_S4x8x3969x16x16 = _
  rw [e]
  exact Cert.Patch.reshape_packed _ _

/-- The run with its result named: every weakly fair execution terminates with the result array holding the windows
    of the argument array, and the argument unchanged. -/
theorem run : θ_run defs (onTc (τ := τ) (main (F := F))) ⟨m, fun _ => 0, ρ⟩ fun r => ∀ c : Dev nD,
      r.2.mem ((c.tc : Thread nD τ).loc main_v1) = Cert.Patch.windows (m ((c.tc : Thread nD τ).loc main_arg0))
      ∧ r.2.mem ((c.tc : Thread nD τ).loc main_arg0) = m ((c.tc : Thread nD τ).loc main_arg0) :=
  (θ_run defs _ _).mono (fun r h c => ⟨((h c).2 main_v1 (by decide)).trans (result m c),
      ((h c).1 0).trans (((dats m 0 c).arrAt_in 0 rfl _).trans ((A_eq m c 0).trans (V_main_arg0 m c)))⟩)
    (run_main m ρ)

end Cert.KernelIdeal.OutValue

end
-- ==== Proof.RefWindows.lean ====
/-
  The reference's value. The reference extracts the 63 × 63 overlapping 16 × 16 windows of each 512 × 512 plane
  by a gather: it builds the two integer arrays of row numbers 8·i + p and of column numbers 8·j + q, wraps negative
  numbers (there are none), joins the two arrays along a new last axis into start indices of shape
  [63, 63, 16, 16, 2], gathers one element of the input per start index and batch pair (b, c), and merges the two
  window axes (i, j) into one, n = 63·i + j. Read at an index this is the re-indexing
  (b, c, n, p, q) ↦ (b, c, 8·(n / 63) + p, 8·(n % 63) + q) of the specification, over any type of values: only
  integer index arithmetic is involved.
-/
import proofs.«144471_j63642825392255_2_alg».proof.Proof.Gen.ReferenceIdeal.Read
import proofs.«144471_j63642825392255_2_alg».proof.Proof.PatchSpec
import Idealize.ShloMosaic.Lib.ValueIdxRank6

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-! ## The 32-bit words of the index arithmetic -/

/-- A number below 512, as a 32-bit word read signed, is itself. -/
theorem toInt_ofNat_small (n : Nat) (h : n < 512) : (BitVec.ofNat 32 n).toInt = (n : Int) := by
  rw [BitVec.toInt_eq_toNat_cond, BitVec.toNat_ofNat, Nat.mod_eq_of_lt (by omega), if_pos (by omega)]

/-- \`8·a + b\` computed on 32-bit words is the word of the number \`8·a + b\`. -/
theorem word_mul8_add (a b : Nat) :
    IntOp.addi (IntOp.muli (BitVec.ofNat 32 a) 8#32) (BitVec.ofNat 32 b) = BitVec.ofNat 32 (8 * a + b) := by
  unfold IntOp.addi IntOp.muli
  rw [show (8#32 : BitVec 32) = BitVec.ofNat 32 8 from rfl, ← BitVec.ofNat_mul, ← BitVec.ofNat_add, Nat.mul_comm]

/-- A number below 512 is not negative as a signed 32-bit word. -/
theorem not_neg_small (n : Nat) (h : n < 512) : IntOp.cmpi .slt (BitVec.ofNat 32 n) 0#32 = 0#1 := by
  unfold IntOp.cmpi
  show BitVec.ofBool ((BitVec.ofNat 32 n).slt 0#32) = 0#1
  rw [BitVec.slt, toInt_ofNat_small n h]
  have : ¬ ((n : Int) < (0#32 : BitVec 32).toInt) := by
    rw [show (0#32 : BitVec 32).toInt = 0 from rfl]; omega
  rw [decide_eq_false this]; rfl

/-- The wrap of a negative index leaves \`8·a + b\` alone, for a window number \`a < 63\` and an offset \`b < 16\`. -/
theorem wrapped (a b : Nat) (ha : a < 63) (hb : b < 16) :
    Scalar.select
      (IntOp.cmpi .slt (IntOp.addi (IntOp.muli (BitVec.ofNat 32 a) 8#32) (BitVec.ofNat 32 b)) 0#32)
      (IntOp.addi (IntOp.addi (IntOp.muli (BitVec.ofNat 32 a) 8#32) (BitVec.ofNat 32 b)) 512#32)
      (IntOp.addi (IntOp.muli (BitVec.ofNat 32 a) 8#32) (BitVec.ofNat 32 b))
    = BitVec.ofNat 32 (8 * a + b) := by
  rw [word_mul8_add, not_neg_small _ (by omega), select_zero]

/-! ## The two start-index arrays at an index -/

/-- The array of row numbers at window \`(i, j)\`, offset \`(p, q)\`: the word of \`8·i + p\`. -/
theorem rows_apply (i j : Fin 63) (p q : Fin 16) (u : Fin 1) :
    val_main_v32 (F := F) (ix5 i j p q u) = BitVec.ofNat 32 (8 * i.val + p.val) := by
  rw [val_main_v32_apply, val_main_v30_apply, val_main_v24_apply, val_main_v21_apply, val_main_v23_apply,
    val_main_v18_apply, val_main_v20_apply, val_main_v22_apply, val_main_c_1_apply, val_main_c_2_apply,
    val_main_v8_apply, val_main_v6_apply, val_main_v7_apply, val_main_v3_apply, val_main_v5_apply,
    val_main_v2_apply, val_main_v4_apply, val_main_v0_apply, val_main_v1_apply, val_main_c_apply]
  exact wrapped i.val p.val i.isLt p.isLt

/-- The array of column numbers at window \`(i, j)\`, offset \`(p, q)\`: the word of \`8·j + q\`. -/
theorem cols_apply (i j : Fin 63) (p q : Fin 16) (u : Fin 1) :
    val_main_v33 (F := F) (ix5 i j p q u) = BitVec.ofNat 32 (8 * j.val + q.val) := by
  rw [val_main_v33_apply, val_main_v31_apply, val_main_v29_apply, val_main_v26_apply, val_main_v28_apply,
    val_main_v19_apply, val_main_v25_apply, val_main_v27_apply, val_main_c_3_apply, val_main_c_4_apply,
    val_main_v17_apply, val_main_v15_apply, val_main_v16_apply, val_main_v12_apply, val_main_v14_apply,
    val_main_v11_apply, val_main_v13_apply, val_main_v9_apply, val_main_v10_apply, val_main_c_0_apply]
  exact wrapped j.val q.val j.isLt q.isLt

/-! ## The start indices: the two arrays joined along a new last axis -/

/-- Component 0 of the start index of window \`(i, j)\`, offset \`(p, q)\` comes from the first array: the row \`8·i + p\`. -/
theorem start_row (i j : Fin 63) (p q : Fin 16) :
    val_main_v34 (F := F) (ix5 i j p q (0 : Fin 2)) = BitVec.ofNat 32 (8 * i.val + p.val) := by
  unfold val_main_v34
  refine (concatenate_pair_apply_left (t := S63x63x16x16x2) (s₁ := S63x63x16x16x1) (s₂ := S63x63x16x16x1)
    (4 : Fin 5) _ _ _ (ix5 i j p q (0 : Fin 2)) rfl (ix5 i j p q (0 : Fin 1)) (fun b => ?_)).trans (rows_apply i j p q 0)
  match b with
  | ⟨0, _⟩ => rfl
  | ⟨1, _⟩ => rfl
  | ⟨2, _⟩ => rfl
  | ⟨3, _⟩ => rfl
  | ⟨4, _⟩ => rfl

/-- Component 1 comes from the second array, at its one position on the joined axis: the column \`8·j + q\`. -/
theorem start_col (i j : Fin 63) (p q : Fin 16) :
    val_main_v34 (F := F) (ix5 i j p q (1 : Fin 2)) = BitVec.ofNat 32 (8 * j.val + q.val) := by
  unfold val_main_v34
  refine (concatenate_pair_apply_right (t := S63x63x16x16x2) (s₁ := S63x63x16x16x1) (s₂ := S63x63x16x16x1)
    (4 : Fin 5) _ _ _ (ix5 i j p q (1 : Fin 2)) rfl rfl (ix5 i j p q (0 : Fin 1)) (fun b hb => ?_) rfl).trans
    (cols_apply i j p q 0)
  match b, hb with
  | ⟨0, _⟩, _ => rfl
  | ⟨1, _⟩, _ => rfl
  | ⟨2, _⟩, _ => rfl
  | ⟨3, _⟩, _ => rfl
  | ⟨4, _⟩, hb => exact absurd rfl hb

/-! ## The gather at an index -/

local notation "gd" => gather_S4x8x512x512_S63x63x16x16x2_S4x8x63x63x16x16_01_23_n_n_23_4_4811

/-- The start-indices index that result index \`(b, c, i, j, p, q)\` reads component \`k\` of its start index at:
    \`(i, j, p, q, k)\`. -/
theorem siIdx_eq (b : Fin 4) (c : Fin 8) (i j : Fin 63) (p q : Fin 16) (k : Fin 2) :
    GatherDims.siIdx gd (ix6 b c i j p q) ⟨k.val, k.isLt⟩ = ix5 i j p q k := by
  funext a; refine Fin.ext ?_
  match a with
  | ⟨0, _⟩ => rfl
  | ⟨1, _⟩ => rfl
  | ⟨2, _⟩ => rfl
  | ⟨3, _⟩ => rfl
  | ⟨4, _⟩ => rfl

section Axes
variable (b : Fin 4) (c : Fin 8) (i j : Fin 63) (p q : Fin 16)

/-- Axis 0 is taken whole (slice size 4, start 0): the operand's coordinate is the result's, \`b\`. -/
theorem operand_axis0 :
    (GatherDims.operandIdx gd (ix6 b c i j p q) (val_main_v34 (F := F)) 0).val = b.val := by
  show GatherDims.start gd (ix6 b c i j p q) (val_main_v34 (F := F)) 0 + GatherDims.batchCoord gd (ix6 b c i j p q) 0
    + GatherDims.offCoord gd (ix6 b c i j p q) 0 = _
  rw [GatherDims.batchCoord_eq_zero _ _ _ List.not_mem_nil, Nat.add_zero]
  unfold GatherDims.start GatherDims.offCoord
  rw [dif_neg (by decide), dif_pos (by decide), Nat.zero_add]
  rfl

/-- Axis 1 is taken whole (slice size 8, start 0): the operand's coordinate is the result's, \`c\`. -/
theorem operand_axis1 :
    (GatherDims.operandIdx gd (ix6 b c i j p q) (val_main_v34 (F := F)) 1).val = c.val := by
  show GatherDims.start gd (ix6 b c i j p q) (val_main_v34 (F := F)) 1 + GatherDims.batchCoord gd (ix6 b c i j p q) 1
    + GatherDims.offCoord gd (ix6 b c i j p q) 1 = _
  rw [GatherDims.batchCoord_eq_zero _ _ _ List.not_mem_nil, Nat.add_zero]
  unfold GatherDims.start GatherDims.offCoord
  rw [dif_neg (by decide), dif_pos (by decide), Nat.zero_add]
  rfl

/-- Axis 2 is collapsed (slice size 1): the operand's coordinate is component 0 of the start index, the row
    \`8·i + p ≤ 511\`, which the clamp into \`[0, 511]\` keeps. -/
theorem operand_axis2 :
    (GatherDims.operandIdx gd (ix6 b c i j p q) (val_main_v34 (F := F)) 2).val = 8 * i.val + p.val := by
  show GatherDims.start gd (ix6 b c i j p q) (val_main_v34 (F := F)) 2 + GatherDims.batchCoord gd (ix6 b c i j p q) 2
    + GatherDims.offCoord gd (ix6 b c i j p q) 2 = _
  rw [GatherDims.batchCoord_eq_zero _ _ _ List.not_mem_nil, Nat.add_zero,
    GatherDims.offCoord_eq_zero _ _ _ (fun h => ((GatherDims.mem_sKept _ _).mp h).1 (by decide)), Nat.add_zero]
  unfold GatherDims.start
  rw [dif_pos (by decide)]
  show min ((val_main_v34 (F := F)) (GatherDims.siIdx gd (ix6 b c i j p q) ⟨(0 : Fin 2).val, (0 : Fin 2).isLt⟩)).toInt.toNat (512 - 1)
    = 8 * i.val + p.val
  rw [siIdx_eq b c i j p q 0, start_row, toInt_ofNat_small _ (by omega), Int.toNat_natCast]
  omega

/-- Axis 3 is collapsed (slice size 1): the operand's coordinate is component 1 of the start index, the column
    \`8·j + q ≤ 511\`, which the clamp into \`[0, 511]\` keeps. -/
theorem operand_axis3 :
    (GatherDims.operandIdx gd (ix6 b c i j p q) (val_main_v34 (F := F)) 3).val = 8 * j.val + q.val := by
  show GatherDims.start gd (ix6 b c i j p q) (val_main_v34 (F := F)) 3 + GatherDims.batchCoord gd (ix6 b c i j p q) 3
    + GatherDims.offCoord gd (ix6 b c i j p q) 3 = _
  rw [GatherDims.batchCoord_eq_zero _ _ _ List.not_mem_nil, Nat.add_zero,
    GatherDims.offCoord_eq_zero _ _ _ (fun h => ((GatherDims.mem_sKept _ _).mp h).1 (by decide)), Nat.add_zero]
  unfold GatherDims.start
  rw [dif_pos (by decide)]
  show min ((val_main_v34 (F := F)) (GatherDims.siIdx gd (ix6 b c i j p q) ⟨(1 : Fin 2).val, (1 : Fin 2).isLt⟩)).toInt.toNat (512 - 1)
    = 8 * j.val + q.val
  rw [siIdx_eq b c i j p q 1, start_col, toInt_ofNat_small _ (by omega), Int.toNat_natCast]
  omega

end Axes

/-- THE GATHER READ AT \`(b, c, i, j, p, q)\`: the input at \`(b, c, 8·i + p, 8·j + q)\`. -/
theorem val_main_v35_apply (x0 : (⟨S4x8x512x512, .f32⟩ : BufTy).Contents (Elt F))
    (b : Fin 4) (c : Fin 8) (i j : Fin 63) (p q : Fin 16) :
    val_main_v35 (F := F) x0 (ix6 b c i j p q)
      = x0 (ix4 b c (⟨8 * i.val + p.val, by omega⟩ : Fin 512) (⟨8 * j.val + q.val, by omega⟩ : Fin 512)) := by
  unfold val_main_v35 Host.gather
  refine congrArg x0 (funext fun a => Fin.ext ?_)
  match a with
  | ⟨0, _⟩ => exact operand_axis0 b c i j p q
  | ⟨1, _⟩ => exact operand_axis1 b c i j p q
  | ⟨2, _⟩ => exact operand_axis2 b c i j p q
  | ⟨3, _⟩ => exact operand_axis3 b c i j p q

/-! ## The reshape, and the reference's value -/

/-- Merging the two window axes \`(i, j)\` of sizes \`63, 63\` into one puts window \`(i, j)\` at \`n = 63·i + j\`: result
    element \`(b, c, n, p, q)\` is the gathered element \`(b, c, n / 63, n % 63, p, q)\`, the input at
    \`(b, c, 8·(n / 63) + p, 8·(n % 63) + q)\`. -/
theorem val_main_v36_apply (x0 : (⟨S4x8x512x512, .f32⟩ : BufTy).Contents (Elt F)) (y : Cert.Patch.SOut.Idx) :
    val_main_v36 (F := F) x0 y = x0 (Cert.Patch.src y) := by
  obtain ⟨b, c, n, p, q, rfl⟩ : ∃ (b : Fin 4) (c : Fin 8) (n : Fin 3969) (p q : Fin 16), y = ix5 b c n p q :=
    ⟨y 0, y 1, y 2, y 3, y 4, eq_ix5 y⟩
  unfold val_main_v36
  refine (shapeCast_apply (s := S4x8x63x63x16x16) (t := S4x8x3969x16x16) _ _ (ix5 b c n p q)
    (ix6 b c (⟨n.val / 63, by omega⟩ : Fin 63) (⟨n.val % 63, by omega⟩ : Fin 63) p q) ?_).trans ?_
  · rw [Shape.rowMajor_val_six, Shape.rowMajor_val_five]
    show ((((b.val * 8 + c.val) * 63 + n.val / 63) * 63 + n.val % 63) * 16 + p.val) * 16 + q.val
      = (((b.val * 8 + c.val) * 3969 + n.val) * 16 + p.val) * 16 + q.val
    omega
  · rw [val_main_v35_apply]
    rfl

/-- THE REFERENCE'S VALUE: its result, as a function of the input array, is the array of the input's windows. -/
theorem result_eq (x0 : (⟨S4x8x512x512, .f32⟩ : BufTy).Contents (Elt F)) :
    val_main_v36 (F := F) x0 = Cert.Patch.windows x0 :=
  funext fun y => val_main_v36_apply x0 y

/-! ## The reference's run, with its result named -/

section Run
open Idealize.ShloMosaic.TcCoe Idealize.SL.Sem Idealize.ShloMosaic.StableHlo

/-- On every device, from any memory with zero counters: every weakly fair execution of the reference terminates
    with its result the array of the windows of its argument, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = Cert.Patch.windows (m ((c.tc : Thread nD τ).loc main_arg0))
      ∧ r.2.mem ((c.tc : Thread nD τ).loc main_arg0) = m ((c.tc : Thread nD τ).loc main_arg0) :=
  (θ_run defs _ _).mono
    (fun _ h c => ⟨by rw [(h c).1, val_main_v36_eq, result_eq], (h c).2⟩)
    (Cert.ReferenceIdeal.Value.run (F := F) m ρ)

end Run

end Cert.ReferenceIdeal.RefValue

end
-- ==== Proof.lean ====
/-
  Overlapping windows of a plane, by a kernel and by a gather: the two idealized programs compute one function.
  For `x : f32[4, 8, 512, 512]` both return the array `[4, 8, 3969, 16, 16]` whose element `(b, c, n, p, q)` is
  `x[b, c, 8·(n / 63) + p, 8·(n % 63) + q]`: the 63 × 63 windows of 16 × 16 elements of each plane, taken at row and
  column strides of 8 and listed in row-major order (`Proof/PatchSpec.lean`).
  The kernel runs one grid point per plane; its body's loop writes one row of 63 windows per trip into the point's
  result block, each window flattened to 256 entries (`Proof/RowsIdeal.lean`, `Proof/RowsBits.lean`: the loop's
  invariant and one trip; `Proof/BodyIdeal.lean`, `Proof/BodyBits.lean`: the body, the proof data and the run, at the
  extended reals and at the machine words), the 32 blocks tile the region's `[4, 8, 63, 63, 256]` result, and the reshape
  that follows gives the array of windows (`Proof/OutValue.lean`, over `Proof/PatchBlock.lean` and
  `Proof/PatchArray.lean`). The reference builds the row and column numbers `8·i + p`, `8·j + q` as integer arrays and
  gathers (`Proof/RefWindows.lean`). Nothing is computed on the values: both sides are the same re-indexing of `x`, so
  the results agree entry by entry for every input, finite or not, and the precondition is never used. The
  idealization rewrote nothing, so it is the kernel's own text read at the extended reals.
-/
import proofs.«144471_j63642825392255_2_alg».proof.Defs
import proofs.«144471_j63642825392255_2_alg».proof.Proof.Gen.Kernel
import proofs.«144471_j63642825392255_2_alg».proof.Proof.Gen.KernelIdeal
import proofs.«144471_j63642825392255_2_alg».proof.Proof.Gen.ReferenceIdeal
import proofs.«144471_j63642825392255_2_alg».proof.Proof.Gen.ReferenceIdeal.Run
import proofs.«144471_j63642825392255_2_alg».proof.Proof.Gen.ReferenceIdeal.Read
import proofs.«144471_j63642825392255_2_alg».proof.Proof.Gen.Pre_finite_inputs
import proofs.«144471_j63642825392255_2_alg».proof.Proof.BodyBits
import proofs.«144471_j63642825392255_2_alg».proof.Proof.OutValue
import proofs.«144471_j63642825392255_2_alg».proof.Proof.RefWindows
import Idealize.ShloMosaic.Adequacy
import Idealize.ShloMosaic.Init

noncomputable section

namespace Cert.Proof

open Idealize.ShloMosaic Idealize.ShloMosaic.TcCoe Idealize.SL.Sem

/-- The kernel, at the machine words, runs and leaves its argument alone. -/
theorem frame_kernel : Cert.frame_Kernel := fun m ρ _ => Cert.Kernel.Body.frame (F := Bits) m ρ

/-- So does its reading at the extended reals. -/
theorem frame_ideal : Cert.frame_KernelIdeal := fun m ρ _ => Cert.KernelIdeal.Body.frame (F := Ideal) m ρ

/-- The reference runs and leaves its argument alone: its run with the result dropped. -/
theorem frame_ref : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- Both programs end with the array of windows of the argument, and the arguments agree. -/
theorem algebraic : Cert.algebraic_KernelIdeal_ReferenceIdeal := by
  intro m ρ m' ρ' _ hagree
  refine ⟨_, Cert.KernelIdeal.OutValue.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
